-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S512x256 : Shape := ⟨2, ![512, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S262144x256 .f32) (main_arg1 : FVec F S512x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S262144x256 : Shape := ⟨2, ![262144, 256]⟩
abbrev S512x256 : Shape := ⟨2, ![512, 256]⟩
abbrev S_ : Shape := ⟨0, ![]⟩
abbrev S512 : Shape := ⟨1, ![512]⟩
abbrev S1x512 : Shape := ⟨2, ![1, 512]⟩
abbrev S2x1x512 : Shape := ⟨3, ![2, 1, 512]⟩
abbrev S2x1x1 : Shape := ⟨3, ![2, 1, 1]⟩
abbrev S4096x256 : Shape := ⟨2, ![4096, 256]⟩
abbrev S1x1x512 : Shape := ⟨3, ![1, 1, 512]⟩
abbrev S1x1x1 : Shape := ⟨3, ![1, 1, 1]⟩
abbrev S4096 : Shape := ⟨1, ![4096]⟩
abbrev S4096x1 : Shape := ⟨2, ![4096, 1]⟩
abbrev S256x512 : Shape := ⟨2, ![256, 512]⟩
abbrev S4096x512 : Shape := ⟨2, ![4096, 512]⟩
abbrev S1 : Shape := ⟨1, ![1]⟩
abbrev S1x1 : Shape := ⟨2, ![1, 1]⟩
abbrev S2x512 : Shape := ⟨2, ![2, 512]⟩
abbrev S2 : Shape := ⟨1, ![2]⟩

abbrev nBuf : Space → Nat
  | .hbm => 26
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S512x256, .bf16⟩
  | .hbm, ⟨3, _⟩ => ⟨S512x256, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S2x1x512, .f32⟩
  | .hbm, ⟨8, _⟩ => ⟨S2x1x1, .f32⟩
  | .hbm, ⟨9, _⟩ => ⟨S2x512, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S512x256, .bf16⟩
  | .local _ .vmem, ⟨3, _⟩ => ⟨S1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x1, .f32⟩
  | .local _ .vmem, ⟨7, _⟩ => ⟨S1x1x1, .f32⟩
  | .local _ .vmem, ⟨8, _⟩ => ⟨S1x1x512, .f32⟩
  | .local _ .vmem, ⟨9, _⟩ => ⟨S1x1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v41 : BitVec 1 := Scalar.cmpi .eq arg1 c31_i32
  let v42 : BitVec 32 := Scalar.extui v41
  let c0_i32_24 : BitVec 32 := 0#32
  let v43 : BitVec 1 := Scalar.cmpi .ne v42 c0_i32_24
  v43

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  reducesTo_S512x256_S512_d1 : S512x256.ReducesTo [1] S512
  h_S_ : 0 < S_.numel
  bcast_S512_S1x512_1 : S512.BroadcastsInDim S1x512 (![1] : Fin 1 → Fin S1x512.rank)
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S4096x256_S4096x256_0_0 : ∀ a, (![0, 0] : Fin 2 → Nat) a + S4096x256.size a ≤ S4096x256.size a
  h_S4096x256 : 0 < S4096x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S4096x256_S4096 : S4096x256.Reduces [1] S4096
  shapeCasts_S4096_S4096x1 : S4096.ShapeCasts S4096x1
  transposes_S512x256_p1_0_S256x512 : S512x256.Transposes [1, 0] S256x512
  broadcasts_S4096x1_S4096x512 : S4096x1.Broadcasts S4096x512
  broadcasts_S1x512_S4096x512 : S1x512.Broadcasts S4096x512
  reduces_S4096x512_S4096 : S4096x512.Reduces [1] S4096
  reduces_S4096x1_S1 : S4096x1.Reduces [0] S1
  shapeCasts_S1_S1x1 : S1.ShapeCasts S1x1
  shapeCasts_S1x1_S1x1x1 : S1x1.ShapeCasts S1x1x1
  reduces_S4096x512_S512 : S4096x512.Reduces [0] S512
  shapeCasts_S512_S1x512 : S512.ShapeCasts S1x512
  shapeCasts_S1x512_S1x1x512 : S1x512.ShapeCasts S1x1x512
  shapeCasts_S2x1x512_S2x512 : S2x1x512.ShapeCasts S2x512
  reducesTo_S2x512_S512_d0 : S2x512.ReducesTo [0] S512
  reducesTo_S512_S_d0 : S512.ReducesTo [0] S_
  shapeCasts_S2x1x1_S2 : S2x1x1.ShapeCasts S2
  reducesTo_S2_S_d0 : S2.ReducesTo [0] S_
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x256 : Shape := ⟨2, ![262144, 256]⟩
abbrev S512x256 : Shape := ⟨2, ![512, 256]⟩
abbrev S_ : Shape := ⟨0, ![]⟩
abbrev S262144 : Shape := ⟨1, ![262144]⟩
abbrev S262144x1 : Shape := ⟨2, ![262144, 1]⟩
abbrev S512 : Shape := ⟨1, ![512]⟩
abbrev S1x512 : Shape := ⟨2, ![1, 512]⟩
abbrev S262144x512 : Shape := ⟨2, ![262144, 512]⟩
abbrev S256x512 : Shape := ⟨2, ![256, 512]⟩
abbrev S512x1 : Shape := ⟨2, ![512, 1]⟩
abbrev S1x262144 : Shape := ⟨2, ![1, 262144]⟩
abbrev S512x262144 : Shape := ⟨2, ![512, 262144]⟩
abbrev S256x262144 : Shape := ⟨2, ![256, 262144]⟩

abbrev nBuf : Space → Nat
  | .hbm => 61
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S262144x256, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S262144x512, .f32⟩
  | .hbm, ⟨11, _⟩ => ⟨S262144x512, .f32⟩
  | .hbm, ⟨12, _⟩ => ⟨S262144x512, .f32⟩
  | .hbm, ⟨13, _⟩ => ⟨S256x512, .f32⟩
  | .hbm, ⟨14, _⟩ => ⟨S262144x512, .f32⟩
  | .hbm, ⟨15, _⟩ => ⟨S_, .f32⟩
  | .hbm, ⟨16, _⟩ => ⟨S262144x512, .f32⟩
  | .hbm, ⟨17, _⟩ => ⟨S262144x512, .f32⟩
  | .hbm, ⟨18, _⟩ => ⟨S262144x512, .f32⟩
  | .hbm, ⟨19, _⟩ => ⟨S_, .f32⟩
  | .hbm, ⟨20, _⟩ => ⟨S262144x512, .f32⟩
  | .hbm, ⟨21, _⟩ => ⟨S262144x512, .f32⟩
  | .hbm, ⟨22, _⟩ => ⟨S262144x512, .f32⟩
  | .hbm, ⟨23, _⟩ => ⟨S512x256, .f32⟩
  | .hbm, ⟨24, _⟩ => ⟨S_, .f32⟩
  | .hbm, ⟨25, _⟩ => ⟨S512, .f32⟩
  | .hbm, ⟨26, _⟩ => ⟨S512x1, .f32⟩
  | .hbm, ⟨27, _⟩ => ⟨S262144x256, .f32⟩
  | .hbm, ⟨28, _⟩ => ⟨S_, .f32⟩
  | .hbm, ⟨29, _⟩ => ⟨S262144, .f32⟩
  | .hbm, ⟨30, _⟩ => ⟨S1x262144, .f32⟩
  | .hbm, ⟨31, _⟩ => ⟨S512x262144, .f32⟩
  | .hbm, ⟨32, _⟩ => ⟨S512x262144, .f32⟩
  | .hbm, ⟨33, _⟩ => ⟨S512x262144, .f32⟩
  | .hbm, ⟨34, _⟩ => ⟨S256x262144, .f32⟩
  | .hbm, ⟨35, _⟩ => ⟨S512x262144, .f32⟩
  | .hbm, ⟨36, _⟩ => ⟨S_, .f32⟩
  | .hbm, ⟨37, _⟩ => ⟨S512x262144, .f32⟩
  | .hbm, ⟨38, _⟩ => ⟨S512x262144, .f32⟩
  | .hbm, ⟨39, _⟩ => ⟨S512x262144, .f32⟩
  | .hbm, ⟨40, _⟩ => ⟨S_, .f32⟩
  | .hbm, ⟨41, _⟩ => ⟨S512x262144, .f32⟩
  | .hbm, ⟨42, _⟩ => ⟨S512x262144, .f32⟩
  | .hbm, ⟨43, _⟩ => ⟨S512x262144, .f32⟩
  | .hbm, ⟨44, _⟩ => ⟨S_, .f32⟩
  | .hbm, ⟨45, _⟩ => ⟨S262144, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_cst_13 : Ref sig .tc := ⟨.hbm, 56, rfl⟩
abbrev main_v40 : Ref sig .tc := ⟨.hbm, 57, rfl⟩
abbrev main_cst_14 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  reducesTo_S512x256_S512_d1 : S512x256.ReducesTo [1] S512
  bcast_S512_S1x512_1 : S512.BroadcastsInDim S1x512 (![1] : Fin 1 → Fin S1x512.rank)
  bcast_S262144x1_S262144x512_0_1 : S262144x1.BroadcastsInDim S262144x512 (![0, 1] : Fin 2 → Fin S262144x512.rank)
  bcast_S1x512_S262144x512_0_1 : S1x512.BroadcastsInDim S262144x512 (![0, 1] : Fin 2 → Fin S262144x512.rank)
  transposes_S512x256_S256x512_1_0 : S512x256.Transposes [1, 0] S256x512
  bcast_S_S262144x512 : S_.BroadcastsInDim S262144x512 (![] : Fin 0 → Fin S262144x512.rank)
  bcast_S512_S512x1_0 : S512.BroadcastsInDim S512x1 (![0] : Fin 1 → Fin S512x1.rank)
  bcast_S262144_S1x262144_1 : S262144.BroadcastsInDim S1x262144 (![1] : Fin 1 → Fin S1x262144.rank)
  bcast_S512x1_S512x262144_0_1 : S512x1.BroadcastsInDim S512x262144 (![0, 1] : Fin 2 → Fin S512x262144.rank)
  bcast_S1x262144_S512x262144_0_1 : S1x262144.BroadcastsInDim S512x262144 (![0, 1] : Fin 2 → Fin S512x262144.rank)
  transposes_S262144x256_S256x262144_1_0 : S262144x256.Transposes [1, 0] S256x262144
  bcast_S_S512x262144 : S_.BroadcastsInDim S512x262144 (![] : Fin 0 → Fin S512x262144.rank)
  reducesTo_S262144x512_S262144_d1 : S262144x512.ReducesTo [1] S262144
  reducesTo_S262144_S_d0 : S262144.ReducesTo [0] S_
  reducesTo_S512x262144_S512_d1 : S512x262144.ReducesTo [1] S512
  reducesTo_S512_S_d0 : S512.ReducesTo [0] S_
  dot_S262144x256_S256x512_S262144x512_1_0_0_1_n_n_wf : DotDims.WF S262144x256 S256x512 S262144x512 [1] [0] [0] [1] [] []
  dot_S512x256_S256x262144_S512x262144_1_0_0_1_n_n_wf : DotDims.WF S512x256 S256x262144 S512x262144 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S512x256_S256x262144_S512x262144_1_0_0_1_n_n : DotDims S512x256 S256x262144 S512x262144 where
  lhsContracting := [1]
  rhsContracting := [0]
  lhsNonContracting := [0]
  rhsNonContracting := [1]
  lhsBatch := []
  rhsBatch := []
  wf := dot_S512x256_S256x262144_S512x262144_1_0_0_1_n_n_wf

class Facts : Prop extends Facts₀ where

variable [Facts]
-- ==== Proof.DistSpec.lean ====
/-
  The quantity both programs compute, stated once over the extended reals.

  For points `z n` (262144 of them) and prototypes `p q` (512), each with 256 coordinates, the squared distance by
  the norm identity is `sq n q = (Σ_d z²  + Σ_d p²) - 2 · Σ_d z·p`.  A distance is the square root of the squared
  distance clamped below at zero.  The loss is a weighted mean, over the points, of each point's distance to its
  nearest prototype, plus the same weighted mean, over the prototypes, of each prototype's distance to its nearest
  point.  The float words of the weights and of the two counts are kept as words: both programs use the same ones.
-/
import Idealize.ShloMosaic.PureOps.Ideal
import Idealize.ShloMosaic.PureOps.Ideal.Laws
import Mathlib.Data.Finset.Fold
import Mathlib.Data.EReal.Basic

noncomputable section

open scoped BigOperators

namespace Cert.DistSpec

open Idealize.ShloMosaic

/-- The word of `2.0`. -/
abbrev two : EReal := Ideal.ofBits .f32 0x40000000#32

variable (z : Fin 262144 → Fin 256 → EReal) (p : Fin 512 → Fin 256 → EReal)

/-- The squared distance from point `n` to prototype `q`, by the norm identity. -/
def sq (n : Fin 262144) (q : Fin 512) : EReal :=
  (∑ d, z n d * z n d + ∑ d, p q d * p q d) - two * ∑ d, z n d * p q d

/-- The square root of a value clamped below at zero. -/
def clampRoot (x : EReal) : EReal := Ideal.sqrt (max x 0)

/-- Point `n`'s distance to its nearest prototype. -/
def rowMin (n : Fin 262144) : EReal :=
  (Finset.univ : Finset (Fin 512)).fold min ⊤ fun q => clampRoot (sq z p n q)

/-- Prototype `q`'s distance to its nearest point. -/
def colMin (q : Fin 512) : EReal :=
  (Finset.univ : Finset (Fin 262144)).fold min ⊤ fun n => clampRoot (sq z p n q)

/-- The last host operations, shared by both programs: from the sum `A` over the points and the sum `B` over the
    prototypes (each started from the zero word), the two weighted means and their sum. -/
def combine (A B : EReal) : EReal :=
  Ideal.ofBits .f32 0x3D4CCCCD#32 * Ideal.div (Ideal.ofBits .f32 0x00000000#32 + A) (Ideal.ofBits .f32 0x48800000#32)
    + Ideal.ofBits .f32 0x3D4CCCCD#32 * Ideal.div (Ideal.ofBits .f32 0x00000000#32 + B) (Ideal.ofBits .f32 0x44000000#32)

/-- The loss. -/
def loss : EReal := combine (∑ n, rowMin z p n) (∑ q, colMin z p q)

end Cert.DistSpec

end
-- ==== Proof.LibMinFold.lean ====
/-
  Minima over a finite family of extended reals, as a fold of `min` from `+∞`.

  * A float minimum reduction over ONE axis, read at the exact instance, is at each result index the fold of `min`
    from the accumulator's value over that axis's coordinates (the companion of the library's law for a maximum).
  * Such a fold from `⊤` is the greatest lower bound of the family: `c ≤ fold ↔ ∀ i, c ≤ g i`; so a value with
    that property IS the fold, which is how a minimum accumulated in several steps is identified with the minimum
    over the whole family without reordering anything.
  * `x ↦ sqrt (max x 0)` is monotone on the extended reals and fixes `⊤`, so it commutes with the fold: the square
    root of the clamped minimum is the minimum of the clamped square roots.
-/
import Idealize.ShloMosaic.PureOps.Ideal.Laws
import Mathlib.Data.Finset.Fold
import Mathlib.Data.EReal.Basic

noncomputable section

namespace Idealize.ShloMosaic.MinFold

open Idealize.ShloMosaic

variable {φ : FTy}

/-- A float `vector.multi_reduction <minimumf>` over one axis, read at the exact instance: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 pattern of `+∞` is `⊤`. -/
theorem ofBits_inf_f32 : Ideal.ofBits .f32 0x7F800000#32 = ⊤ := by simp [Ideal.ofBits, Ideal.ieee]

variable {ι : Type*}

/-- A fold of `min` from `⊤` is a lower bound of exactly what every member is above. -/
theorem le_fold_min_top (s : Finset ι) (g : ι → EReal) (c : EReal) :
    c ≤ s.fold min ⊤ g ↔ ∀ i ∈ s, c ≤ g i := by
  rw [Finset.le_fold_min]; exact ⟨fun h => h.2, fun h => ⟨le_top, h⟩⟩

/-- A value that is below exactly the lower bounds of the whole family is the fold of `min` over it. -/
theorem eq_fold_min_top_of_le_iff [Fintype ι] (g : ι → EReal) (x : EReal) (h : ∀ c, c ≤ x ↔ ∀ i, c ≤ g i) :
    x = (Finset.univ : Finset ι).fold min ⊤ g := by
  apply le_antisymm
  · rw [le_fold_min_top]; intro i _; exact (h x).mp le_rfl i
  · rw [h]; intro i; exact (le_fold_min_top _ _ _).mp le_rfl i (Finset.mem_univ i)

/-- The exact square root is monotone on the extended reals. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe q =>
      have hrq : r ≤ q := EReal.coe_le_coe_iff.mp hxy
      simp only [Ideal.sqrt_coe]
      by_cases hr : r < 0
      · rw [if_pos hr]; exact bot_le
      · rw [if_neg hr, if_neg (by linarith : ¬ q < 0)]
        exact EReal.coe_le_coe_iff.mpr (Real.sqrt_le_sqrt hrq)

/-- Clamping below at zero and then taking the square root is monotone. -/
theorem sqrtClamp_mono : Monotone (fun x : EReal => Ideal.sqrt (max x 0)) :=
  fun _ _ h => sqrt_mono (max_le_max h le_rfl)

instance : Std.Commutative (min : EReal → EReal → EReal) := ⟨min_comm⟩
instance : Std.Associative (min : EReal → EReal → EReal) := ⟨min_assoc⟩

/-- The square root of the clamped minimum is the minimum of the clamped square roots. -/
theorem sqrtClamp_fold_min (s : Finset ι) (g : ι → EReal) :
    Ideal.sqrt (max (s.fold min ⊤ g) 0) = s.fold min ⊤ (fun i => Ideal.sqrt (max (g i) 0)) := by
  have h := Finset.fold_hom (op := (min : EReal → EReal → EReal)) (op' := (min : EReal → EReal → EReal))
    (m := fun x : EReal => Ideal.sqrt (max x 0)) (b := (⊤ : EReal)) (f := g) (s := s)
    (fun x y => sqrtClamp_mono.map_min)
  have htop : Ideal.sqrt (max (⊤ : EReal) 0) = ⊤ := by rw [max_eq_left le_top]; rfl
  simp only [htop] at h
  exact h.symm

end Idealize.ShloMosaic.MinFold

end
-- ==== Proof.RefLoss.lean ====
/-
  The reference's result, read as the specification's loss.

  The reference forms, for the points `z` and the prototypes `p`, the array of distances
  `sqrt (max ((|z n|² + |p q|²) - 2 · ⟨z n, p q⟩) 0)` over points by prototypes, and a second time, with the roles of
  the two arrays exchanged, over prototypes by points; takes the minimum of each row of each; sums the minima; divides
  each sum by its count and weighs it; and adds the two.  Read entry by entry:

  * each squared norm is the zero word plus a sum of squares over the coordinates, and the zero word is `0`;
  * the squared distance at `(n, q)` of the first array is the specification's `sq n q` as written; at `(q, n)` of the
    second array the two norms are added in the other order and the factors of each product are swapped, which is
    `sq n q` again by commutativity of `+` and `·` on the extended reals (no finiteness is used);
  * a minimum reduction along the second axis, started from the word of `+∞`, is at each row the fold of `min` from
    `⊤` over that row;
  * a sum over a one-axis index set is the sum over its coordinate.
-/
import proofs.«170576_j20349555048831_2_alg».proof.Proof.Gen.ReferenceIdeal.Read
import proofs.«170576_j20349555048831_2_alg».proof.Proof.DistSpec
import proofs.«170576_j20349555048831_2_alg».proof.Proof.LibMinFold
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

section Reads

variable (x0 : (⟨S262144x256, .f32⟩ : BufTy).Contents (Elt Ideal)) (x1 : (⟨S512x256, .f32⟩ : BufTy).Contents (Elt Ideal))

/-- The points, by point and coordinate. -/
abbrev pts : Fin 262144 → Fin 256 → EReal := fun n d => x0 (ix2 n d)
/-- The prototypes, by prototype and coordinate. -/
abbrev protos : Fin 512 → Fin 256 → EReal := fun q d => x1 (ix2 q d)

/-! ## The squared norms -/

/-- The squared norm of point `n`, as the reference sums it: from the zero word. -/
theorem sqnorm_pts (n : Fin 262144) :
    val_main_v1 (F := Ideal) x0 (ix1 n) = Ideal.ofBits .f32 0x00000000#32 + ∑ d : Fin 256, x0 (ix2 n d) * x0 (ix2 n d) := by
  rw [val_main_v1_apply]
  refine congrArg₂ (· + ·) rfl (Finset.sum_congr rfl fun d _ => ?_)
  rw [val_main_v0_apply]
  have e : idx_main_v1 (ix1 n) d = ix2 n d := funext fun a => Fin.ext (by match a with | ⟨0, _⟩ => rfl | ⟨1, _⟩ => rfl)
  rw [e]; rfl

/-- The squared norm of prototype `q`, from the zero word. -/
theorem sqnorm_protos (q : Fin 512) :
    val_main_v4 (F := Ideal) x1 (ix1 q) = Ideal.ofBits .f32 0x00000000#32 + ∑ d : Fin 256, x1 (ix2 q d) * x1 (ix2 q d) := by
  rw [val_main_v4_apply]
  refine congrArg₂ (· + ·) rfl (Finset.sum_congr rfl fun d _ => ?_)
  rw [val_main_v3_apply]
  have e : idx_main_v4 (ix1 q) d = ix2 q d := funext fun a => Fin.ext (by match a with | ⟨0, _⟩ => rfl | ⟨1, _⟩ => rfl)
  rw [e]; rfl

/-! ## The squared distance, points by prototypes -/

/-- The inner product of point `n` and prototype `q`, as the reference's contraction reads it. -/
theorem dot_pts_protos (n : Fin 262144) (q : Fin 512) :
    val_main_v10 (F := Ideal) x0 x1 (ix2 n q) = ∑ d : Fin 256, x0 (ix2 n d) * x1 (ix2 q d) := by
  rw [val_main_v10_apply]
  refine Finset.sum_congr rfl fun d _ => ?_
  rw [val_main_v9_apply]
  have el : lidx_main_v10 (ix2 n q) d = ix2 n d := funext fun a => Fin.ext (by match a with | ⟨0, _⟩ => rfl | ⟨1, _⟩ => rfl)
  have er : idx_main_v9 (ridx_main_v10 (ix2 n q) d) = ix2 q d := funext fun a => Fin.ext (by match a with | ⟨0, _⟩ => rfl | ⟨1, _⟩ => rfl)
  rw [el, er]

/-- The reference's squared distance from point `n` to prototype `q` is the specification's. -/
theorem sqdist_pts_protos (n : Fin 262144) (q : Fin 512) :
    val_main_v13 (F := Ideal) x0 x1 (ix2 n q) = Cert.DistSpec.sq (pts x0) (protos x1) n q := by
  rw [val_main_v13_apply, val_main_v8_apply, val_main_v12_apply, val_main_v6_apply, val_main_v7_apply,
    val_main_v2_apply, val_main_v5_apply, val_main_v11_apply, val_main_cst_1_apply, dot_pts_protos]
  have e1 : idx_main_v2 (idx_main_v6 (ix2 n q)) = ix1 n := funext fun a => Fin.ext (by match a with | ⟨0, _⟩ => rfl)
  have e2 : idx_main_v5 (idx_main_v7 (ix2 n q)) = ix1 q := funext fun a => Fin.ext (by match a with | ⟨0, _⟩ => rfl)
  rw [e1, e2, sqnorm_pts, sqnorm_protos]
  simp only [Ideal.addf_def, Ideal.subf_def, Ideal.mulf_def, Ideal.ofBits_def, Ideal.ofBits_zero_f32, zero_add]
  rfl

/-! ## The squared distance, prototypes by points -/

/-- The inner product of prototype `q` and point `n`, as the reference's second contraction reads it. -/
theorem dot_protos_pts (q : Fin 512) (n : Fin 262144) :
    val_main_v27 (F := Ideal) x0 x1 (ix2 q n) = ∑ d : Fin 256, x1 (ix2 q d) * x0 (ix2 n d) := by
  rw [val_main_v27_apply]
  refine Finset.sum_congr rfl fun d _ => ?_
  rw [val_main_v26_apply]
  have el : lidx_main_v27 (ix2 q n) d = ix2 q d := funext fun a => Fin.ext (by match a with | ⟨0, _⟩ => rfl | ⟨1, _⟩ => rfl)
  have er : idx_main_v26 (ridx_main_v27 (ix2 q n) d) = ix2 n d := funext fun a => Fin.ext (by match a with | ⟨0, _⟩ => rfl | ⟨1, _⟩ => rfl)
  rw [el, er]

/-- The squared norm of prototype `q`, as the reference sums it the second time. -/
theorem sqnorm_protos' (q : Fin 512) :
    val_main_v18 (F := Ideal) x1 (ix1 q) = Ideal.ofBits .f32 0x00000000#32 + ∑ d : Fin 256, x1 (ix2 q d) * x1 (ix2 q d) := by
  rw [val_main_v18_apply]
  refine congrArg₂ (· + ·) rfl (Finset.sum_congr rfl fun d _ => ?_)
  rw [val_main_v17_apply]
  have e : idx_main_v18 (ix1 q) d = ix2 q d := funext fun a => Fin.ext (by match a with | ⟨0, _⟩ => rfl | ⟨1, _⟩ => rfl)
  rw [e]; rfl

/-- The squared norm of point `n`, as the reference sums it the second time. -/
theorem sqnorm_pts' (n : Fin 262144) :
    val_main_v21 (F := Ideal) x0 (ix1 n) = Ideal.ofBits .f32 0x00000000#32 + ∑ d : Fin 256, x0 (ix2 n d) * x0 (ix2 n d) := by
  rw [val_main_v21_apply]
  refine congrArg₂ (· + ·) rfl (Finset.sum_congr rfl fun d _ => ?_)
  rw [val_main_v20_apply]
  have e : idx_main_v21 (ix1 n) d = ix2 n d := funext fun a => Fin.ext (by match a with | ⟨0, _⟩ => rfl | ⟨1, _⟩ => rfl)
  rw [e]; rfl

/-- The reference's squared distance from prototype `q` to point `n` is the specification's from `n` to `q`:
    the two squared norms are added in the other order and each product of coordinates has its factors swapped. -/
theorem sqdist_protos_pts (q : Fin 512) (n : Fin 262144) :
    val_main_v30 (F := Ideal) x0 x1 (ix2 q n) = Cert.DistSpec.sq (pts x0) (protos x1) n q := by
  rw [val_main_v30_apply, val_main_v25_apply, val_main_v29_apply, val_main_v23_apply, val_main_v24_apply,
    val_main_v19_apply, val_main_v22_apply, val_main_v28_apply, val_main_cst_5_apply, dot_protos_pts]
  have e1 : idx_main_v19 (idx_main_v23 (ix2 q n)) = ix1 q := funext fun a => Fin.ext (by match a with | ⟨0, _⟩ => rfl)
  have e2 : idx_main_v22 (idx_main_v24 (ix2 q n)) = ix1 n := funext fun a => Fin.ext (by match a with | ⟨0, _⟩ => rfl)
  rw [e1, e2, sqnorm_protos', sqnorm_pts']
  simp only [Ideal.addf_def, Ideal.subf_def, Ideal.mulf_def, Ideal.ofBits_def, Ideal.ofBits_zero_f32, zero_add]
  unfold Cert.DistSpec.sq
  rw [add_comm (∑ d : Fin 256, x1 (ix2 q d) * x1 (ix2 q d))]
  refine congrArg₂ (· - ·) rfl (congrArg₂ (· * ·) rfl (Finset.sum_congr rfl fun d _ => mul_comm _ _))

/-! ## The distances -/

/-- The reference's distance from point `n` to prototype `q`. -/
theorem dist_pts_protos (n : Fin 262144) (q : Fin 512) :
    val_main_v16 (F := Ideal) x0 x1 (ix2 n q) = Cert.DistSpec.clampRoot (Cert.DistSpec.sq (pts x0) (protos x1) n q) := by
  rw [val_main_v16_apply, val_main_v15_apply, val_main_v14_apply, val_main_cst_2_apply, sqdist_pts_protos]
  simp only [Ideal.hostUnary_sqrt_def, Ideal.maximumf_def, Ideal.ofBits_def, Ideal.ofBits_zero_f32]
  rfl

/-- The reference's distance from prototype `q` to point `n`. -/
theorem dist_protos_pts (q : Fin 512) (n : Fin 262144) :
    val_main_v33 (F := Ideal) x0 x1 (ix2 q n) = Cert.DistSpec.clampRoot (Cert.DistSpec.sq (pts x0) (protos x1) n q) := by
  rw [val_main_v33_apply, val_main_v32_apply, val_main_v31_apply, val_main_cst_6_apply, sqdist_protos_pts]
  simp only [Ideal.hostUnary_sqrt_def, Ideal.maximumf_def, Ideal.ofBits_def, Ideal.ofBits_zero_f32]
  rfl

/-! ## The two minimum reductions -/

/-- A reduction by minimum of a two-axis array along its second axis is, at row `i`, the fold of `min` from the
    initial value over the entries `(i, k)` of the row. -/
theorem hostReduce_min_rows {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce FloatOps.minimumf x init h' hu (ix1 i)
      = (Finset.univ : Finset (Fin b)).fold min (init (Shape.Idx.first hu)) (fun k => x (ix2 i k)) := by
  rw [Host.reduce_eq_fold_single FloatOps.minimumf x init h' h hu]
  have hf : (x ∘ h.lift (ix1 i)) = fun k : Fin b => x (ix2 i k) :=
    funext fun k => congrArg x (funext fun c => Fin.ext (by match c with | ⟨0, _⟩ => rfl | ⟨1, _⟩ => rfl))
  exact congrArg (fun f => Finset.fold min (init (Shape.Idx.first hu)) f (Finset.univ : Finset (Fin b))) hf

/-- The reference's minimum over the prototypes at point `n` is that point's distance to its nearest prototype. -/
theorem rowMin_read (n : Fin 262144) :
    val_main_v34 (F := Ideal) x0 x1 (ix1 n) = Cert.DistSpec.rowMin (pts x0) (protos x1) n := by
  unfold val_main_v34
  refine (hostReduce_min_rows (val_main_v16 (F := Ideal) x0 x1) (val_main_cst_7 (F := Ideal))
    Facts₀.reducesTo_S262144x512_S262144_d1 (by decide) Facts₀.h_S_ n).trans ?_
  rw [val_main_cst_7_apply, Ideal.ofBits_def, MinFold.ofBits_inf_f32]
  unfold Cert.DistSpec.rowMin
  exact congrArg (fun f => Finset.fold min (⊤ : EReal) f (Finset.univ : Finset (Fin 512)))
    (funext fun q => dist_pts_protos x0 x1 n q)

/-- The reference's minimum over the points at prototype `q` is that prototype's distance to its nearest point. -/
theorem colMin_read (q : Fin 512) :
    val_main_v38 (F := Ideal) x0 x1 (ix1 q) = Cert.DistSpec.colMin (pts x0) (protos x1) q := by
  unfold val_main_v38
  refine (hostReduce_min_rows (val_main_v33 (F := Ideal) x0 x1) (val_main_cst_11 (F := Ideal))
    Facts₀.reducesTo_S512x262144_S512_d1 (by decide) Facts₀.h_S_ q).trans ?_
  rw [val_main_cst_11_apply, Ideal.ofBits_def, MinFold.ofBits_inf_f32]
  unfold Cert.DistSpec.colMin
  exact congrArg (fun f => Finset.fold min (⊤ : EReal) f (Finset.univ : Finset (Fin 262144)))
    (funext fun n => dist_protos_pts x0 x1 q n)

/-! ## The two sums -/

/-- A one-axis index set is its coordinate range. -/
def idxEquiv1 {n : ℕ} : Fin n ≃ (⟨1, ![n]⟩ : Shape).Idx where
  toFun := ix1
  invFun j := j 0
  left_inv _ := rfl
  right_inv j := (eq_ix1 j).symm

/-- A sum over a one-axis index set is the sum over the coordinate. -/
theorem sum_idx1 {M : Type*} [AddCommMonoid M] {n : ℕ} (f : (⟨1, ![n]⟩ : Shape).Idx → M) :
    ∑ j, f j = ∑ a : Fin n, f (ix1 a) :=
  (Equiv.sum_comp (idxEquiv1 (n := n)) f).symm

/-- The sum of the reference's row minima is the sum over the points of their nearest-prototype distances. -/
theorem sum_rowMin :
    ∑ j : S262144.Idx, val_main_v34 (F := Ideal) x0 x1 j = ∑ n : Fin 262144, Cert.DistSpec.rowMin (pts x0) (protos x1) n := by
  rw [sum_idx1]
  exact Finset.sum_congr rfl fun n _ => rowMin_read x0 x1 n

/-- The sum of the reference's column minima is the sum over the prototypes of their nearest-point distances. -/
theorem sum_colMin :
    ∑ j : S512.Idx, val_main_v38 (F := Ideal) x0 x1 j = ∑ q : Fin 512, Cert.DistSpec.colMin (pts x0) (protos x1) q := by
  rw [sum_idx1]
  exact Finset.sum_congr rfl fun q _ => colMin_read x0 x1 q

end Reads

/-! ## The loss -/

/-- The reference's result is the specification's loss of the points and the prototypes. -/
theorem ref_value (x0 : (⟨S262144x256, .f32⟩ : BufTy).Contents (Elt Ideal)) (x1 : (⟨S512x256, .f32⟩ : BufTy).Contents (Elt Ideal)) (i : S_.Idx) :
    Cert.ReferenceIdeal.Read.val_main_v42 (F := Ideal) x0 x1 i
      = Cert.DistSpec.loss (fun n d => x0 (ValueIdx.ix2 n d)) (fun q d => x1 (ValueIdx.ix2 q d)) := by
  rw [val_main_v42_apply, val_main_v37_apply, val_main_v41_apply, val_main_v36_apply, val_main_v40_apply,
    val_main_v35_apply, val_main_v39_apply, val_main_cst_8_apply, val_main_cst_12_apply, val_main_cst_9_apply,
    val_main_cst_13_apply, val_main_cst_10_apply, val_main_cst_14_apply, sum_rowMin, sum_colMin]
  simp only [Ideal.addf_def, Ideal.mulf_def, Ideal.hostDivf_def, Ideal.ofBits_def]
  rfl

end Cert.ReferenceIdeal.RefValue

end
-- ==== Proof.KernelPieces.lean ====
import proofs.«170576_j20349555048831_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem scratchMin_A (c : Dev nD) (i : grid0.Coords) (arg2 : Memref sig .tc .vmem S4096x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x1x512 .f32) (harg5 : arg5.IsWhole) (arg6 : Memref sig .tc .vmem S1x1x1 .f32) (harg6 : arg6.IsWhole) (arg7 : Memref sig .tc .vmem S1x1x512 .f32) (harg7 : arg7.IsWhole) (arg8 : Memref sig .tc .vmem S1x1x1 .f32) (harg8 : arg8.IsWhole) (hc0 : cond0_0 i) (hc1 : ¬cond0_1 i) (x0 : Vec F S4096x256 .f32) (x1 : Vec F S512x256 .bf16) (x2 : Vec F S1x512 .f32)  :
    sout0_A_0 c i arg2 harg2 arg3 harg3 arg4 harg4 arg5 harg5 arg6 harg6 arg7 harg7 arg8 harg8 hc0 hc1 x0 x1 x2 = k0_pay1 (k0_pay7 x0 x1 x2) k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1x512) hz3, View.readCov_unit_zero (S := S1x1x512) _ hz3]
  simp only [View.readAt_eq_ld, harg2.read_unread, harg3.read_unread, harg4.read_unread, harg7.read_unread, harg8.read_unread, View.ld_unit_zero (S := S4096x256) hz2, View.ld_unit_zero (S := S512x256) hz2, View.ld_unit_zero (S := S1x512) hz2, View.ld_unit_zero (S := S1x1x512) hz3, View.ld_unit_zero (S := S1x1x1) hz3]

theorem scratchSum_A (c : Dev nD) (i : grid0.Coords) (arg2 : Memref sig .tc .vmem S4096x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x1x512 .f32) (harg5 : arg5.IsWhole) (arg6 : Memref sig .tc .vmem S1x1x1 .f32) (harg6 : arg6.IsWhole) (arg7 : Memref sig .tc .vmem S1x1x512 .f32) (harg7 : arg7.IsWhole) (arg8 : Memref sig .tc .vmem S1x1x1 .f32) (harg8 : arg8.IsWhole) (hc0 : cond0_0 i) (hc1 : ¬cond0_1 i) (x0 : Vec F S4096x256 .f32) (x1 : Vec F S512x256 .bf16) (x2 : Vec F S1x512 .f32)  :
    sout0_A_1 c i arg2 harg2 arg3 harg3 arg4 harg4 arg5 harg5 arg6 harg6 arg7 harg7 arg8 harg8 hc0 hc1 x0 x1 x2 = k0_pay6 x0 x1 x2 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg7.read_unread, harg8.read_unread, View.ld_unit_zero (S := S4096x256) hz2, View.ld_unit_zero (S := S512x256) hz2, View.ld_unit_zero (S := S1x512) hz2, View.ld_unit_zero (S := S1x1x512) hz3, View.ld_unit_zero (S := S1x1x1) hz3]

theorem scratchMin_B (c : Dev nD) (i : grid0.Coords) (arg2 : Memref sig .tc .vmem S4096x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x1x512 .f32) (harg5 : arg5.IsWhole) (arg6 : Memref sig .tc .vmem S1x1x1 .f32) (harg6 : arg6.IsWhole) (arg7 : Memref sig .tc .vmem S1x1x512 .f32) (harg7 : arg7.IsWhole) (arg8 : Memref sig .tc .vmem S1x1x1 .f32) (harg8 : arg8.IsWhole) (hc0 : ¬cond0_0 i) (hc1 : ¬cond0_1 i) (x0 : Vec F S4096x256 .f32) (x1 : Vec F S512x256 .bf16) (x2 : Vec F S1x512 .f32) (xs0 : Vec F S1x1x512 .f32) (xs1 : Vec F S1x1x1 .f32) :
    sout0_B_0 c i arg2 harg2 arg3 harg3 arg4 harg4 arg5 harg5 arg6 harg6 arg7 harg7 arg8 harg8 hc0 hc1 x0 x1 x2 xs0 xs1 = k0_pay1 (k0_pay7 x0 x1 x2) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz3]
  simp only [View.readAt_eq_ld, harg2.read_unread, harg3.read_unread, harg4.read_unread, harg7.read_unread, harg8.read_unread, View.ld_unit_zero (S := S4096x256) hz2, View.ld_unit_zero (S := S512x256) hz2, View.ld_unit_zero (S := S1x512) hz2, View.ld_unit_zero (S := S1x1x512) hz3, View.ld_unit_zero (S := S1x1x1) hz3]

theorem scratchSum_B (c : Dev nD) (i : grid0.Coords) (arg2 : Memref sig .tc .vmem S4096x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x1x512 .f32) (harg5 : arg5.IsWhole) (arg6 : Memref sig .tc .vmem S1x1x1 .f32) (harg6 : arg6.IsWhole) (arg7 : Memref sig .tc .vmem S1x1x512 .f32) (harg7 : arg7.IsWhole) (arg8 : Memref sig .tc .vmem S1x1x1 .f32) (harg8 : arg8.IsWhole) (hc0 : ¬cond0_0 i) (hc1 : ¬cond0_1 i) (x0 : Vec F S4096x256 .f32) (x1 : Vec F S512x256 .bf16) (x2 : Vec F S1x512 .f32) (xs0 : Vec F S1x1x512 .f32) (xs1 : Vec F S1x1x1 .f32) :
    sout0_B_1 c i arg2 harg2 arg3 harg3 arg4 harg4 arg5 harg5 arg6 harg6 arg7 harg7 arg8 harg8 hc0 hc1 x0 x1 x2 xs0 xs1 = k0_pay6 x0 x1 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz3]
  simp only [View.readAt_eq_ld, harg2.read_unread, harg3.read_unread, harg4.read_unread, harg7.read_unread, harg8.read_unread, View.ld_unit_zero (S := S4096x256) hz2, View.ld_unit_zero (S := S512x256) hz2, View.ld_unit_zero (S := S1x512) hz2, View.ld_unit_zero (S := S1x1x512) hz3, View.ld_unit_zero (S := S1x1x1) hz3]

theorem scratchMin_C (c : Dev nD) (i : grid0.Coords) (arg2 : Memref sig .tc .vmem S4096x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x1x512 .f32) (harg5 : arg5.IsWhole) (arg6 : Memref sig .tc .vmem S1x1x1 .f32) (harg6 : arg6.IsWhole) (arg7 : Memref sig .tc .vmem S1x1x512 .f32) (harg7 : arg7.IsWhole) (arg8 : Memref sig .tc .vmem S1x1x1 .f32) (harg8 : arg8.IsWhole) (hc0 : ¬cond0_0 i) (hc1 : cond0_1 i) (x0 : Vec F S4096x256 .f32) (x1 : Vec F S512x256 .bf16) (x2 : Vec F S1x512 .f32) (xs0 : Vec F S1x1x512 .f32) (xs1 : Vec F S1x1x1 .f32) :
    sout0_C_0 c i arg2 harg2 arg3 harg3 arg4 harg4 arg5 harg5 arg6 harg6 arg7 harg7 arg8 harg8 hc0 hc1 x0 x1 x2 xs0 xs1 = k0_pay1 (k0_pay7 x0 x1 x2) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readAt_eq_ld, harg2.read_unread, harg3.read_unread, harg4.read_unread, harg7.read_unread, harg8.read_unread, View.ld_unit_zero (S := S4096x256) hz2, View.ld_unit_zero (S := S512x256) hz2, View.ld_unit_zero (S := S1x512) hz2, View.ld_unit_zero (S := S1x1x512) hz3, View.ld_unit_zero (S := S1x1x1) hz3]

theorem scratchSum_C (c : Dev nD) (i : grid0.Coords) (arg2 : Memref sig .tc .vmem S4096x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x1x512 .f32) (harg5 : arg5.IsWhole) (arg6 : Memref sig .tc .vmem S1x1x1 .f32) (harg6 : arg6.IsWhole) (arg7 : Memref sig .tc .vmem S1x1x512 .f32) (harg7 : arg7.IsWhole) (arg8 : Memref sig .tc .vmem S1x1x1 .f32) (harg8 : arg8.IsWhole) (hc0 : ¬cond0_0 i) (hc1 : cond0_1 i) (x0 : Vec F S4096x256 .f32) (x1 : Vec F S512x256 .bf16) (x2 : Vec F S1x512 .f32) (xs0 : Vec F S1x1x512 .f32) (xs1 : Vec F S1x1x1 .f32) :
    sout0_C_1 c i arg2 harg2 arg3 harg3 arg4 harg4 arg5 harg5 arg6 harg6 arg7 harg7 arg8 harg8 hc0 hc1 x0 x1 x2 xs0 xs1 = k0_pay6 x0 x1 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readAt_eq_ld, harg2.read_unread, harg3.read_unread, harg4.read_unread, harg7.read_unread, harg8.read_unread, View.ld_unit_zero (S := S4096x256) hz2, View.ld_unit_zero (S := S512x256) hz2, View.ld_unit_zero (S := S1x512) hz2, View.ld_unit_zero (S := S1x1x512) hz3, View.ld_unit_zero (S := S1x1x1) hz3]

theorem outMin_C (c : Dev nD) (i : grid0.Coords) (arg2 : Memref sig .tc .vmem S4096x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x1x512 .f32) (harg5 : arg5.IsWhole) (arg6 : Memref sig .tc .vmem S1x1x1 .f32) (harg6 : arg6.IsWhole) (arg7 : Memref sig .tc .vmem S1x1x512 .f32) (harg7 : arg7.IsWhole) (arg8 : Memref sig .tc .vmem S1x1x1 .f32) (harg8 : arg8.IsWhole) (hc0 : ¬cond0_0 i) (hc1 : cond0_1 i) (x0 : Vec F S4096x256 .f32) (x1 : Vec F S512x256 .bf16) (x2 : Vec F S1x512 .f32) (xs0 : Vec F S1x1x512 .f32) (xs1 : Vec F S1x1x1 .f32) :
    out0_C_3 c i arg2 harg2 arg3 harg3 arg4 harg4 arg5 harg5 arg6 harg6 arg7 harg7 arg8 harg8 hc0 hc1 x0 x1 x2 xs0 xs1 = k0_pay2 (k0_pay1 (k0_pay7 x0 x1 x2) xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readAt_eq_ld, harg2.read_unread, harg3.read_unread, harg4.read_unread, harg7.read_unread, harg8.read_unread, View.ld_unit_zero (S := S4096x256) hz2, View.ld_unit_zero (S := S512x256) hz2, View.ld_unit_zero (S := S1x512) hz2, View.ld_unit_zero (S := S1x1x512) hz3, View.ld_unit_zero (S := S1x1x1) hz3]
  rw [View.readCov_unit_zero (S := S1x1x512) _ hz3]

theorem outSum_C (c : Dev nD) (i : grid0.Coords) (arg2 : Memref sig .tc .vmem S4096x256 .f32) (harg2 : arg2.IsWhole) (arg3 : Memref sig .tc .vmem S512x256 .bf16) (harg3 : arg3.IsWhole) (arg4 : Memref sig .tc .vmem S1x512 .f32) (harg4 : arg4.IsWhole) (arg5 : Memref sig .tc .vmem S1x1x512 .f32) (harg5 : arg5.IsWhole) (arg6 : Memref sig .tc .vmem S1x1x1 .f32) (harg6 : arg6.IsWhole) (arg7 : Memref sig .tc .vmem S1x1x512 .f32) (harg7 : arg7.IsWhole) (arg8 : Memref sig .tc .vmem S1x1x1 .f32) (harg8 : arg8.IsWhole) (hc0 : ¬cond0_0 i) (hc1 : cond0_1 i) (x0 : Vec F S4096x256 .f32) (x1 : Vec F S512x256 .bf16) (x2 : Vec F S1x512 .f32) (xs0 : Vec F S1x1x512 .f32) (xs1 : Vec F S1x1x1 .f32) :
    out0_C_4 c i arg2 harg2 arg3 harg3 arg4 harg4 arg5 harg5 arg6 harg6 arg7 harg7 arg8 harg8 hc0 hc1 x0 x1 x2 xs0 xs1 = k0_pay6 x0 x1 x2 xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readAt_eq_ld, harg2.read_unread, harg3.read_unread, harg4.read_unread, harg7.read_unread, harg8.read_unread, View.ld_unit_zero (S := S4096x256) hz2, View.ld_unit_zero (S := S512x256) hz2, View.ld_unit_zero (S := S1x512) hz2, View.ld_unit_zero (S := S1x1x512) hz3, View.ld_unit_zero (S := S1x1x1) hz3]
  rw [View.readCov_unit_zero (S := S1x1x1) _ hz3]

end Cert.KernelIdeal.Pieces

end
-- ==== Proof.KernelSteps.lean ====
/-
  What one grid point leaves behind, in terms of the body's arithmetic.

  The kernel carries two accumulators from point to point: a row of 512 running minima and one running sum.  At a
  core's first step both are reset (to the word of +∞ and to the zero word) before the tile is folded in; at every
  later step the tile is folded into what the step before left; at a core's last step the two output blocks are
  written from the accumulators: the clamped square root of the running minima, and the running sum as it is.
  Each statement below is the generated per-case contents read through the covering store's value.
-/
import proofs.«170576_j20349555048831_2_alg».proof.Proof.KernelPieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- After a core's first step: the tile's column minima folded into the +∞ row, the tile's sum added to zero. -/
theorem scratch_first (c : Dev nD) (t : Fin cfg0.N) (h0 : t.val % 32 = 0) :
    (outsAt0 m c t.val t.isLt).2.2.1 = k0_pay1 (k0_pay7 (iblk m c 0 t) (iblk m c 1 t) (iblk m c 2 t)) k0_pay3
      ∧ (outsAt0 m c t.val t.isLt).2.2.2 = k0_pay6 (iblk m c 0 t) (iblk m c 1 t) (iblk m c 2 t) k0_pay4 := by
  have h1 : ¬t.val % 32 = 31 := by omega
  rw [outsAt0_A m c t h0 h1]
  dsimp only
  exact ⟨Pieces.scratchMin_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t),
    Pieces.scratchSum_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)⟩

/-- After any later step: the tile folded into what the step before left. -/
theorem scratch_next (c : Dev nD) (t : Fin cfg0.N) (h0 : ¬t.val % 32 = 0) :
    (outsAt0 m c t.val t.isLt).2.2.1 = k0_pay1 (k0_pay7 (iblk m c 0 t) (iblk m c 1 t) (iblk m c 2 t)) (outsAt0 m c (t.val - 1) (Nat.lt_of_le_of_lt (Nat.sub_le _ _) t.isLt)).2.2.1
      ∧ (outsAt0 m c t.val t.isLt).2.2.2 = k0_pay6 (iblk m c 0 t) (iblk m c 1 t) (iblk m c 2 t) (outsAt0 m c (t.val - 1) (Nat.lt_of_le_of_lt (Nat.sub_le _ _) t.isLt)).2.2.2 := by
  by_cases h1 : t.val % 32 = 31
  · rw [outsAt0_C m c t h0 h1]
    dsimp only
    exact ⟨Pieces.scratchMin_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.scratchSum_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨Pieces.scratchMin_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.scratchSum_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At a core's last step the outputs are written from the accumulators as this step leaves them. -/
theorem outputs_last (c : Dev nD) (t : Fin cfg0.N) (h1 : t.val % 32 = 31) :
    (outsAt0 m c t.val t.isLt).1 = k0_pay2 (outsAt0 m c t.val t.isLt).2.2.1
      ∧ (outsAt0 m c t.val t.isLt).2.1 = (outsAt0 m c t.val t.isLt).2.2.2 := by
  have h0 : ¬t.val % 32 = 0 := by omega
  rw [outsAt0_C m c t h0 h1]
  dsimp only
  rw [Pieces.outMin_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.outSum_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.scratchMin_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.scratchSum_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact ⟨rfl, rfl⟩

end Cert.KernelIdeal.Steps

end
-- ==== Proof.KernelBlocks.lean ====
/-
  What the kernel's body is handed at grid point `t` (the points are numbered `t = 32·core + step`, 64 in all):
  the input windows' blocks, read at coordinates.

  * The block of `z` at point `t` is its rows `t·4096 … t·4096 + 4095`: the window's row-block index at `t` is `t`
    itself (`core·32 + step`).
  * The prototypes' window never moves: its one block is the whole array the host wrote before the call — the
    prototypes with their float format changed, which on the extended reals is the identity.
  * So is the window of the prototypes' squared norms: the host's row sums of `p·p`, started from the zero word,
    laid out as one row.
-/
import proofs.«170576_j20349555048831_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen

/-- The 64 points' block indices, decided once over the grid. -/
theorem idx_z : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_p : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_pn : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem lt_rows (t : Fin cfg0.N) (r : Fin 4096) : t.val * 4096 + r.val < 262144 := by
  have h : t.val < 64 := lt_of_lt_of_eq t.isLt (show cfg0.N = 64 from N_0)
  have := r.isLt
  omega

/-- Row `r` of the tile at point `t`, as a row of `z`. -/
def rowOf (t : Fin cfg0.N) (r : Fin 4096) : Fin 262144 := ⟨t.val * 4096 + r.val, lt_rows t r⟩

variable {F : FTy → Type} [FloatOps F]
variable (m : (ℓ : Loc nD τ sig) → Buf (Elt F) ℓ)

/-- The block of `z` at point `t`: rows `t·4096 + r`. -/
theorem zblock (c : Dev nD) (t : Fin cfg0.N) (r : Fin 4096) (d : Fin 256) :
    (iblk m c 0 t : Vec F S4096x256 .f32) (ix2 r d) = m ((c : Thread nD τ).loc main_arg0) (ix2 (rowOf t r) d) := by
  unfold iblk
  rw [View.read_apply]
  show V m c main_arg0 _ = _
  rw [V_main_arg0]
  refine congrArg _ (funext fun a => Fin.ext ?_)
  match a with
  | ⟨0, _⟩ => show win0_0.index t 0 * 4096 + 1 * r.val = t.val * 4096 + r.val; rw [(idx_z t).1]; omega
  | ⟨1, _⟩ => show win0_0.index t 1 * 256 + 1 * d.val = d.val; rw [(idx_z t).2]; omega

/-- What the host wrote into the prototypes' window before the call. -/
theorem V_proto (c : Dev nD) :
    (V m c main_v0 : S512x256.Idx → Elt F .bf16) = truncf .bf16 (m ((c : Thread nD τ).loc main_arg1)) bitsLt_bf16_f32 := by
  show StableHlo.after hostOps0 (fun b => m (c, b)) (Proc.devRef .tc main_v0) = _
  after_results

/-- What the host wrote into the squared norms' window before the call. -/
theorem V_norms (c : Dev nD) :
    (V m c main_v3 : S1x512.Idx → Elt F .f32)
      = broadcastInDim S1x512 ![1] bcast_S512_S1x512_1
          (Host.reduceAdd (mulf (m ((c : Thread nD τ).loc main_arg1)) (m ((c : Thread nD τ).loc main_arg1)))
            (constant S_ .f32 0x00000000#32) reducesTo_S512x256_S512_d1 h_S_) := by
  show StableHlo.after hostOps0 (fun b => m (c, b)) (Proc.devRef .tc main_v3) = _
  after_results

/-- The prototypes' block at any point is the whole array the host wrote. -/
theorem pblock_V (c : Dev nD) (t : Fin cfg0.N) (q : Fin 512) (d : Fin 256) :
    (iblk m c 1 t : Vec F S512x256 .bf16) (ix2 q d) = (V m c main_v0 : S512x256.Idx → Elt F .bf16) (ix2 q d) := by
  unfold iblk
  rw [View.read_apply]
  show V m c main_v0 _ = _
  refine congrArg _ (funext fun a => Fin.ext ?_)
  match a with
  | ⟨0, _⟩ => show win0_1.index t 0 * 512 + 1 * q.val = q.val; rw [(idx_p t).1]; omega
  | ⟨1, _⟩ => show win0_1.index t 1 * 256 + 1 * d.val = d.val; rw [(idx_p t).2]; omega

/-- The norms' block at any point is the whole row the host wrote. -/
theorem nblock_V (c : Dev nD) (t : Fin cfg0.N) (q : Fin 512) :
    (iblk m c 2 t : Vec F S1x512 .f32) (ix2 (0 : Fin 1) q) = (V m c main_v3 : S1x512.Idx → Elt F .f32) (ix2 (0 : Fin 1) q) := by
  unfold iblk
  rw [View.read_apply]
  show V m c main_v3 _ = _
  refine congrArg _ (funext fun a => Fin.ext ?_)
  match a with
  | ⟨0, _⟩ => show win0_2.index t 0 * 1 + 1 * (0 : Fin 1).val = (0 : Fin 1).val; rw [(idx_pn t).1]; omega
  | ⟨1, _⟩ => show win0_2.index t 1 * 512 + 1 * q.val = q.val; rw [(idx_pn t).2]; omega

end Cert.KernelIdeal.Blocks

/-! ## The same at the exact instance -/

namespace Cert.KernelIdeal.Blocks

open Cert.KernelIdeal Cert.KernelIdeal.Gen

variable (m : (ℓ : Loc nD τ sig) → Buf (Elt Ideal) ℓ)

/-- The points `z`, as the program's first argument holds them on core `c`. -/
abbrev points (c : Dev nD) : FVec Ideal S262144x256 .f32 := m ((c : Thread nD τ).loc main_arg0)
/-- The prototypes `p`, as the program's second argument holds them on core `c`. -/
abbrev protos (c : Dev nD) : FVec Ideal S512x256 .f32 := m ((c : Thread nD τ).loc main_arg1)

/-- On the extended reals the prototypes' block is the prototypes. -/
theorem pblock (c : Dev nD) (t : Fin cfg0.N) (q : Fin 512) (d : Fin 256) :
    (iblk m c 1 t : Vec Ideal S512x256 .bf16) (ix2 q d) = protos m c (ix2 q d) := by
  rw [pblock_V, V_proto]
  rfl

/-- On the extended reals the block of `z` at point `t` is its rows `t·4096 + r`. -/
theorem zblock_pts (c : Dev nD) (t : Fin cfg0.N) (r : Fin 4096) (d : Fin 256) :
    (iblk m c 0 t : Vec Ideal S4096x256 .f32) (ix2 r d) = points m c (ix2 (rowOf t r) d) :=
  zblock m c t r d

/-- The host's row sum of `p·p`, started from the zero word, laid out as one row and read at column `q`. -/
theorem norms_apply (x : FVec Ideal S512x256 .f32) (q : Fin 512) :
    broadcastInDim S1x512 ![1] bcast_S512_S1x512_1
        (Host.reduceAdd (F := Ideal) (mulf x x) (constant (F := Ideal) S_ .f32 0x00000000#32) reducesTo_S512x256_S512_d1 h_S_)
        (ix2 (0 : Fin 1) q)
      = Ideal.ofBits .f32 0x00000000#32 + ∑ d : Fin 256, x (ix2 q d) * x (ix2 q d) := by
  rw [broadcastInDim_apply _ bcast_S512_S1x512_1 _ (ix2 (0 : Fin 1) q) (ix1 q) (fun a => match a with
    | ⟨0, _⟩ => by show q.val = if (512 : Nat) = 1 then 0 else q.val; rw [if_neg (by decide)])]
  simp only [Host.reduceAdd, Ideal.hostReduceAdd_def]
  rw [Ideal.hostReduceAdd_single reducesTo_S512x256_S512_d1 (by decide)]
  refine congrArg (_ + ·) (Finset.sum_congr rfl fun k _ => ?_)
  exact congrArg (fun j => x j * x j) (funext fun a => Fin.ext (by match a with | ⟨0, _⟩ => rfl | ⟨1, _⟩ => rfl))

/-- On the extended reals the norms' block at column `q` is the zero word plus the sum of the squares of prototype
    `q`'s coordinates. -/
theorem nblock (c : Dev nD) (t : Fin cfg0.N) (q : Fin 512) :
    (iblk m c 2 t : Vec Ideal S1x512 .f32) (ix2 (0 : Fin 1) q)
      = Ideal.ofBits .f32 0x00000000#32
        + ∑ d : Fin 256, protos m c (ix2 q d) * protos m c (ix2 q d) := by
  rw [nblock_V, V_norms]
  exact norms_apply _ q

end Cert.KernelIdeal.Blocks

end
-- ==== Proof.AccumAlgebra.lean ====
/-
  The arithmetic of accumulating over the grid, with no program in sight.

  The 64 grid points are numbered `k = 32·core + step`; point `k` handles rows `k·4096 … k·4096 + 4095` of the
  262144 rows.  Each core restarts its accumulators at its first step (`k % 32 = 0`) and folds one tile into them at
  every step.

  * A running minimum restarted from `⊤` is, after step `k`, the greatest lower bound of the tiles folded since the
    restart (`runMin_le_iff`); a running sum restarted from `0` is their sum (`runSum_eq`).
  * The two cores' totals add up to the total over all 64 points (`sum_cores`), and a sum over points and rows within
    a tile is a sum over all rows (`sum_rows`): addition of extended reals is commutative and associative, so no
    finiteness is needed.
  * A value characterized as the greatest lower bound of a finite family is the fold of `min` over it, so the clamped
    square root, being monotone, passes through it; hence the minimum over the cores of the clamped roots of the
    cores' minima is the minimum over all rows of the clamped roots (`min_cores`).
-/
import proofs.«170576_j20349555048831_2_alg».proof.Proof.LibMinFold
import proofs.«170576_j20349555048831_2_alg».proof.Proof.DistSpec
import Mathlib.Algebra.BigOperators.Intervals
import Mathlib.Algebra.BigOperators.Fin
import Mathlib.Logic.Equiv.Fin.Basic

noncomputable section

open scoped BigOperators

namespace Cert.AccumAlgebra

open Idealize.ShloMosaic Idealize.ShloMosaic.MinFold Cert.DistSpec

/-- Row `r` of the tile of point `t`. -/
def rowN (t : Fin 64) (r : Fin 4096) : Fin 262144 :=
  ⟨t.val * 4096 + r.val, by have := t.isLt; have := r.isLt; omega⟩

/-- The running minimum: restarted from `⊤` at each core's first step, it is after step `n` the greatest lower bound
    of the tiles `C k` folded since the restart. -/
theorem runMin_le_iff (M C : ℕ → EReal)
    (h0 : ∀ n, n < 64 → n % 32 = 0 → M n = min ⊤ (C n))
    (hs : ∀ n, n < 64 → n % 32 ≠ 0 → M n = min (M (n - 1)) (C n)) :
    ∀ n, n < 64 → ∀ x, x ≤ M n ↔ ∀ k, n - n % 32 ≤ k → k ≤ n → x ≤ C k := by
  intro n
  induction n with
  | zero =>
    intro hn x
    rw [h0 0 hn rfl, le_min_iff]
    constructor
    · rintro ⟨_, h⟩ k _ hk
      obtain rfl : k = 0 := by omega
      exact h
    · intro h; exact ⟨le_top, h 0 (by omega) (by omega)⟩
  | succ n ih =>
    intro hn x
    by_cases hm : (n + 1) % 32 = 0
    · rw [h0 _ hn hm, le_min_iff]
      constructor
      · rintro ⟨_, h⟩ k hk1 hk2
        obtain rfl : k = n + 1 := by omega
        exact h
      · intro h; exact ⟨le_top, h (n + 1) (by omega) le_rfl⟩
    · rw [hs _ hn hm, le_min_iff, show n + 1 - 1 = n from rfl, ih (by omega)]
      constructor
      · rintro ⟨h1, h2⟩ k hk1 hk2
        by_cases hk : k = n + 1
        · subst hk; exact h2
        · exact h1 k (by omega) (by omega)
      · intro h
        exact ⟨fun k hk1 hk2 => h k (by omega) (by omega), h (n + 1) (by omega) le_rfl⟩

/-- The running sum: restarted from `0` at each core's first step, it is after step `n` the sum of the tiles' terms
    `T k` added since the restart. -/
theorem runSum_eq (S T : ℕ → EReal)
    (h0 : ∀ n, n < 64 → n % 32 = 0 → S n = 0 + T n)
    (hs : ∀ n, n < 64 → n % 32 ≠ 0 → S n = S (n - 1) + T n) :
    ∀ n, n < 64 → S n = ∑ k ∈ Finset.Icc (n - n % 32) n, T k := by
  intro n
  induction n with
  | zero =>
    intro hn
    rw [h0 0 hn rfl, zero_add]
    simp
  | succ n ih =>
    intro hn
    by_cases hm : (n + 1) % 32 = 0
    · rw [h0 _ hn hm, zero_add, hm, Nat.sub_zero, Finset.Icc_self, Finset.sum_singleton]
    · rw [hs _ hn hm, show n + 1 - 1 = n from rfl, ih (by omega),
        show n + 1 - (n + 1) % 32 = n - n % 32 from by omega,
        Finset.sum_Icc_succ_top (by omega : n - n % 32 ≤ n + 1)]

/-- The two cores' totals make up the total over the 64 points. -/
theorem sum_cores (T : ℕ → EReal) :
    ∑ c : Fin 2, ∑ k ∈ Finset.Icc (32 * c.val) (32 * c.val + 31), T k = ∑ t : Fin 64, T t.val := by
  rw [Fin.sum_univ_two, Fin.sum_univ_eq_sum_range (fun k => T k) 64, Finset.range_eq_Ico,
    ← Finset.sum_Ico_consecutive T (Nat.zero_le 32) (by norm_num : 32 ≤ 64)]
  have e1 : Finset.Icc (32 * (0 : Fin 2).val) (32 * (0 : Fin 2).val + 31) = Finset.Ico 0 32 := by
    ext k; simp only [Finset.mem_Icc, Finset.mem_Ico, Fin.val_zero]; omega
  have e2 : Finset.Icc (32 * (1 : Fin 2).val) (32 * (1 : Fin 2).val + 31) = Finset.Ico 32 64 := by
    ext k; simp only [Finset.mem_Icc, Finset.mem_Ico, Fin.val_one]; omega
  rw [e1, e2]

/-- Every row is row `r` of exactly one point's tile. -/
def rowEquiv : Fin 64 × Fin 4096 ≃ Fin 262144 where
  toFun x := rowN x.1 x.2
  invFun n := (⟨n.val / 4096, by have := n.isLt; omega⟩, ⟨n.val % 4096, Nat.mod_lt _ (by norm_num)⟩)
  left_inv x := by
    obtain ⟨t, r⟩ := x
    have := r.isLt
    refine Prod.ext (Fin.ext ?_) (Fin.ext ?_)
    · show (t.val * 4096 + r.val) / 4096 = t.val; omega
    · show (t.val * 4096 + r.val) % 4096 = r.val; omega
  right_inv n := Fin.ext (by show n.val / 4096 * 4096 + n.val % 4096 = n.val; omega)

/-- A sum over the points and the rows within each tile is the sum over all rows. -/
theorem sum_rows (f : Fin 262144 → EReal) : ∑ t : Fin 64, ∑ r : Fin 4096, f (rowN t r) = ∑ n, f n := by
  rw [← Equiv.sum_comp rowEquiv f, Fintype.sum_prod_type]
  rfl

/-- A property of all rows is a property of every row of every tile. -/
theorem forall_rows (g : Fin 262144 → Prop) : (∀ n, g n) ↔ ∀ (t : Fin 64) (r : Fin 4096), g (rowN t r) :=
  ⟨fun h t r => h _, fun h n => by have := h (rowEquiv.symm n).1 (rowEquiv.symm n).2; rwa [show rowN (rowEquiv.symm n).1 (rowEquiv.symm n).2 = n from rowEquiv.apply_symm_apply n] at this⟩

/-- A value below exactly the lower bounds of a finite family is the fold of `min` over it. -/
theorem eq_fold_min_of_le_iff {ι : Type*} (s : Finset ι) (f : ι → EReal) (M : EReal)
    (h : ∀ x, x ≤ M ↔ ∀ i ∈ s, x ≤ f i) : M = s.fold min ⊤ f := by
  apply le_antisymm
  · rw [le_fold_min_top]; exact (h M).mp le_rfl
  · rw [h]; exact (le_fold_min_top s f _).mp le_rfl

/-- The clamped root of a greatest lower bound of a finite family is the greatest lower bound of the clamped roots. -/
theorem le_clampRoot_iff {ι : Type*} (s : Finset ι) (f : ι → EReal) (M : EReal)
    (h : ∀ x, x ≤ M ↔ ∀ i ∈ s, x ≤ f i) (x : EReal) :
    x ≤ clampRoot M ↔ ∀ i ∈ s, x ≤ clampRoot (f i) := by
  rw [eq_fold_min_of_le_iff s f M h]
  unfold clampRoot
  rw [sqrtClamp_fold_min, le_fold_min_top]

/-- The minimum over the two cores of the clamped roots of the cores' accumulated minima is the minimum over all rows
    of the clamped roots: core `c`'s minimum is the greatest lower bound of `g` over the rows of its 32 tiles. -/
theorem min_cores (g : Fin 262144 → EReal) (M : Fin 2 → EReal)
    (hM : ∀ (c : Fin 2) x, x ≤ M c ↔
      ∀ k, 32 * c.val ≤ k → k ≤ 32 * c.val + 31 → ∀ (hk : k < 64) (r : Fin 4096), x ≤ g (rowN ⟨k, hk⟩ r)) :
    (Finset.univ : Finset (Fin 2)).fold min ⊤ (fun c => clampRoot (M c))
      = (Finset.univ : Finset (Fin 262144)).fold min ⊤ fun n => clampRoot (g n) := by
  apply eq_fold_min_top_of_le_iff
  intro x
  rw [le_fold_min_top]
  -- core `c`'s rows, as a finite set
  let s : Fin 2 → Finset (Fin 262144) := fun c =>
    Finset.univ.filter fun n => 32 * c.val ≤ n.val / 4096 ∧ n.val / 4096 ≤ 32 * c.val + 31
  have hs : ∀ (c : Fin 2) y, y ≤ M c ↔ ∀ n ∈ s c, y ≤ g n := by
    intro c y
    rw [hM c y]
    constructor
    · intro h n hn
      simp only [s, Finset.mem_filter, Finset.mem_univ, true_and] at hn
      have hlt := n.isLt
      have := h (n.val / 4096) hn.1 hn.2 (by omega) ⟨n.val % 4096, Nat.mod_lt _ (by norm_num)⟩
      rwa [show rowN ⟨n.val / 4096, by omega⟩ ⟨n.val % 4096, Nat.mod_lt _ (by norm_num)⟩ = n from
        Fin.ext (by show n.val / 4096 * 4096 + n.val % 4096 = n.val; omega)] at this
    · intro h k hk1 hk2 hk r
      have hr := r.isLt
      refine h _ ?_
      simp only [s, Finset.mem_filter, Finset.mem_univ, true_and]
      have : (rowN ⟨k, hk⟩ r).val / 4096 = k := by show (k * 4096 + r.val) / 4096 = k; omega
      rw [this]; exact ⟨hk1, hk2⟩
  constructor
  · intro h n
    have hlt := n.isLt
    have hc : n.val / 4096 / 32 < 2 := by omega
    refine (le_clampRoot_iff (s ⟨n.val / 4096 / 32, hc⟩) g _ (hs _) x).mp (h _ (Finset.mem_univ _)) n ?_
    simp only [s, Finset.mem_filter, Finset.mem_univ, true_and]
    omega
  · intro h c _
    exact (le_clampRoot_iff (s c) g _ (hs c) x).mpr fun n _ => h n

end Cert.AccumAlgebra

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.TileValues.lean ====
/-
  One tile of the pairwise squared distances, read entry by entry over the extended reals.

  A tile pairs 4096 points `z r` (256 coordinates each) with all 512 prototypes `p q` and the prototypes' squared
  norms `n q`.  Its entry `(r, q)` is the norm identity `(Σ_d z r d ² + n q) - 2 · Σ_d z r d · p q d`.  From the
  tile come three quantities: for each prototype the least entry of its column, for each point the clamped square
  root of the least entry of its row (these are added up and added to a running total), and the running columnwise
  minimum updated by an elementwise `min`.  Every statement below reads one of these at explicit coordinates.
-/
import proofs.«170576_j20349555048831_2_alg».proof.Proof.Gen.KernelIdeal.Skeleton
import proofs.«170576_j20349555048831_2_alg».proof.Proof.DistSpec
import proofs.«170576_j20349555048831_2_alg».proof.Proof.LibMinFold
import proofs.«170576_j20349555048831_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-! ## Reductions of a two-axis array read at coordinates -/

/-- The minimum of an `[a, b]` array along its second axis, started from `+∞`, is at row `i` the fold of `min` from
    `⊤` over the columns `k` of the entries `(i, k)`. -/
theorem multiReduction_min_rows_apply {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (i : Fin a) :
    multiReduction .minimumf [1] ⟨1, ![a]⟩ src 0x7F800000#32 h hφ hacc (ix1 i)
      = (Finset.univ : Finset (Fin b)).fold min ⊤ fun k => src (ix2 i k) := by
  refine (MinFold.multiReduction_minimumf_single src 0x7F800000#32 h hφ hacc (ix1 i)).trans ?_
  refine (congrArg (fun c => (Finset.univ : Finset (Fin b)).fold min c (src ∘ h.lift (ix1 i))) MinFold.ofBits_inf_f32).trans ?_
  refine congrArg (fun g => (Finset.univ : Finset (Fin b)).fold min ⊤ g) (funext fun k => congrArg src ?_)
  funext ax
  apply Fin.ext
  match ax with
  | ⟨0, _⟩ => rfl
  | ⟨1, _⟩ => rfl

/-- The minimum of an `[a, b]` array along its first axis, started from `+∞`, is at column `j` the fold of `min`
    from `⊤` over the rows `i` of the entries `(i, j)`. -/
theorem multiReduction_min_cols_apply {a b : ℕ} (src : FVec Ideal ⟨2, ![a, b]⟩ .f32)
    (h : (⟨2, ![a, b]⟩ : Shape).Reduces [0] ⟨1, ![b]⟩) (hφ : FKind.Formats .f32)
    (hacc : (0x7F800000#32 : BitVec 32) = FKind.minimumf.neutral .f32 hφ) (j : Fin b) :
    multiReduction .minimumf [0] ⟨1, ![b]⟩ src 0x7F800000#32 h hφ hacc (ix1 j)
      = (Finset.univ : Finset (Fin a)).fold min ⊤ fun i => src (ix2 i j) := by
  refine (MinFold.multiReduction_minimumf_single src 0x7F800000#32 h hφ hacc (ix1 j)).trans ?_
  refine (congrArg (fun c => (Finset.univ : Finset (Fin a)).fold min c (src ∘ h.lift (ix1 j))) MinFold.ofBits_inf_f32).trans ?_
  refine congrArg (fun g => (Finset.univ : Finset (Fin a)).fold min ⊤ g) (funext fun i => congrArg src ?_)
  funext ax
  apply Fin.ext
  match ax with
  | ⟨0, _⟩ => rfl
  | ⟨1, _⟩ => rfl

/-- The sum of a one-column `[a, 1]` array along its first axis, started from the zero word, is the sum over the
    rows `i` of the entries `(i, 0)`. -/
theorem multiReduction_add_col_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ i : Fin a, src (ix2 i (0 : Fin 1)) := by
  refine (Ideal.multiReduction_add_single src 0x00000000#32 h hφ hacc (ix1 u)).trans ?_
  refine Finset.sum_congr rfl fun i _ => congrArg src ?_
  funext ax
  apply Fin.ext
  match ax with
  | ⟨0, _⟩ => rfl
  | ⟨1, _⟩ => show u.val = 0; omega

/-! ## Clamping below at zero and taking the square root, entry by entry -/

/-- The elementwise maximum with the zero word followed by the square root is, at each entry, the clamped square
    root of that entry. -/
theorem sqrt_clamp_apply {s : Shape} (v : FVec Ideal s .f32) (i : s.Idx) :
    sqrt (maximumf v (broadcast s (Scalar.ofBits (F := Ideal) .f32 0x00000000#32))) i = Cert.DistSpec.clampRoot (v i) := by
  unfold Cert.DistSpec.clampRoot
  show Ideal.sqrt (max (v i) (Ideal.ofBits .f32 0x00000000#32)) = _
  rw [Ideal.ofBits_zero_f32]

/-! ## The product of the points with the transposed prototypes -/

/-- The record of the tile's one contraction: rows of the left operand against columns of the right. -/
local notation "dotTile" => dot_S4096x256_S256x512_S4096x512_1_0_0_1_n_n

/-- The left operand is read in the output's row … -/
theorem lhs_row (i : S4096x512.Idx) (k : (dotTile).contr.Idx) : ((dotTile).lhsIdx i k 0).val = (i 0).val := by
  unfold DotDims.lhsIdx
  rw [dif_neg (show ¬(0 : Fin S4096x256.rank) ∈ (dotTile).lhsBatch by decide),
    dif_pos (show (0 : Fin S4096x256.rank) ∈ (dotTile).lhsNonContracting by decide)]
  rfl

/-- … at the shared coordinate; -/
theorem lhs_contr (i : S4096x512.Idx) (k : (dotTile).contr.Idx) :
    ((dotTile).lhsIdx i k 1).val = (k ⟨0, by decide⟩).val :=
  (dotTile).lhsIdx_val_of_single rfl i k

/-- the right operand is read at the shared coordinate … -/
theorem rhs_contr (i : S4096x512.Idx) (k : (dotTile).contr.Idx) :
    ((dotTile).rhsIdx i k 0).val = (k ⟨0, by decide⟩).val :=
  (dotTile).rhsIdx_val_of_single rfl i k

/-- … in the output's column. -/
theorem rhs_col (i : S4096x512.Idx) (k : (dotTile).contr.Idx) : ((dotTile).rhsIdx i k 1).val = (i 1).val := by
  unfold DotDims.rhsIdx
  rw [dif_neg (show ¬(1 : Fin S256x512.rank) ∈ (dotTile).rhsBatch by decide),
    dif_pos (show (1 : Fin S256x512.rank) ∈ (dotTile).rhsNonContracting by decide)]
  rfl

/-- The product into a zero accumulator is, at `(r, q)`, the sum over the shared coordinate `d` of the left operand
    at `(r, d)` times the right operand at `(d, q)`. -/
theorem matmul_tile_apply (l : FVec Ideal S4096x256 .bf16) (rt : FVec Ideal S256x512 .bf16) (r : Fin 4096) (q : Fin 512) :
    matmul (dotTile) none l rt (constant (F := Ideal) S4096x512 .f32 0x00000000#32) (ix2 r q)
      = ∑ d : Fin 256, l (ix2 r d) * rt (ix2 d q) := by
  refine (Ideal.matmul_constant_zero_apply (dotTile) none l rt (ix2 r q)).trans ?_
  rw [← Equiv.sum_comp (contrEquiv1 (dotTile) 256 rfl rfl).symm]
  refine Finset.sum_congr rfl fun d _ => ?_
  have hd := contrEquiv1_symm_val (dotTile) 256 rfl rfl d
  have el : (dotTile).lhsIdx (ix2 r q) ((contrEquiv1 (dotTile) 256 rfl rfl).symm d) = ix2 r d :=
    funext fun a => Fin.ext (by
      match a with
      | ⟨0, _⟩ => exact lhs_row _ _
      | ⟨1, _⟩ => exact (lhs_contr _ _).trans hd)
  have er : (dotTile).rhsIdx (ix2 r q) ((contrEquiv1 (dotTile) 256 rfl rfl).symm d) = ix2 d q :=
    funext fun a => Fin.ext (by
      match a with
      | ⟨0, _⟩ => exact (rhs_contr _ _).trans hd
      | ⟨1, _⟩ => exact rhs_col _ _)
  rw [el, er]

/-! ## The tile of squared distances -/

section Pieces

variable (y0 : FVec Ideal S4096x256 .f32) (y1 : FVec Ideal S512x256 .bf16) (y2 : FVec Ideal S1x512 .f32)

/-- Each point's squared norm, spread along its row: at `(r, q)` the sum over `d` of `z r d ²`. -/
theorem pointNorm_apply (r : Fin 4096) (q : Fin 512) :
    broadcastTo S4096x512
        (shapeCast S4096x1
          (multiReduction (F := Ideal) .add [1] S4096 (mulf y0 y0) 0x00000000#32 reduces_S4096x256_S4096 (.inl rfl) rfl)
          shapeCasts_S4096_S4096x1)
        broadcasts_S4096x1_S4096x512 (ix2 r q)
      = ∑ d : Fin 256, y0 (ix2 r d) * y0 (ix2 r d) :=
  (Cert.LibKeepdims.broadcastTo_a1_ab_apply _ broadcasts_S4096x1_S4096x512 r q).trans
    ((Cert.LibKeepdims.shapeCast_a_a1_apply _ shapeCasts_S4096_S4096x1 r (0 : Fin 1)).trans
      (Cert.LibKeepdims.multiReduction_add_rows_apply (mulf y0 y0) reduces_S4096x256_S4096 (.inl rfl) rfl r))

/-- The prototypes' squared norms, spread down the columns: at `(r, q)` the norm of prototype `q`. -/
theorem protoNorm_apply (r : Fin 4096) (q : Fin 512) :
    broadcastTo S4096x512 (shapeCast S1x512 y2 shapeCasts_S1x512_S1x512) broadcasts_S1x512_S4096x512 (ix2 r q)
      = y2 (ix2 (0 : Fin 1) q) :=
  (broadcastTo_1b_ab_apply _ broadcasts_S1x512_S4096x512 r q).trans
    (congrFun (shapeCast_self y2 shapeCasts_S1x512_S1x512) _)

/-- The inner products: at `(r, q)` the sum over `d` of `z r d · p q d` (the prototypes enter transposed, and a change
    of float format does not change an extended real). -/
theorem inner_apply (r : Fin 4096) (q : Fin 512) :
    matmul (dotTile) none (truncf .bf16 y0 bitsLt_bf16_f32)
        (transpose S256x512 [1, 0] (shapeCast S512x256 y1 shapeCasts_S512x256_S512x256) transposes_S512x256_p1_0_S256x512)
        (constant (F := Ideal) S4096x512 .f32 0x00000000#32) (ix2 r q)
      = ∑ d : Fin 256, y0 (ix2 r d) * y1 (ix2 q d) := by
  refine (matmul_tile_apply _ _ r q).trans (Finset.sum_congr rfl fun d _ => ?_)
  refine congrArg (y0 (ix2 r d) * ·) ?_
  exact (transpose_ix2_apply _ transposes_S512x256_p1_0_S256x512 d q).trans
    (congrFun (shapeCast_self y1 shapeCasts_S512x256_S512x256) _)

end Pieces

variable (x0 : Vec Ideal S4096x256 .f32) (x1 : Vec Ideal S512x256 .bf16) (x2 : Vec Ideal S1x512 .f32)

/-- The tile's entry `(r, q)` is the norm identity for the squared distance from point `r` to prototype `q`. -/
theorem pay5_apply (r : Fin 4096) (q : Fin 512) :
    k0_pay5 (F := Ideal) x0 x1 x2 (ix2 r q)
      = (∑ d : Fin 256, x0 (ix2 r d) * x0 (ix2 r d) + x2 (ix2 (0 : Fin 1) q))
          - Cert.DistSpec.two * ∑ d : Fin 256, x0 (ix2 r d) * x1 (ix2 q d) := by
  unfold k0_pay5
  exact congrArg₂ (· - ·)
    (congrArg₂ (· + ·) (pointNorm_apply x0 r q) (protoNorm_apply x2 r q))
    (congrArg (Cert.DistSpec.two * ·) (inner_apply x0 x1 r q))

/-! ## What is taken from the tile -/

/-- For each prototype, the least entry of its column of the tile. -/
theorem pay7_apply (q : Fin 512) :
    k0_pay7 (F := Ideal) x0 x1 x2 (ix2 (0 : Fin 1) q)
      = (Finset.univ : Finset (Fin 4096)).fold min ⊤ fun r => k0_pay5 (F := Ideal) x0 x1 x2 (ix2 r q) := by
  unfold k0_pay7
  exact (shapeCast_a_1a_apply _ shapeCasts_S512_S1x512 (0 : Fin 1) q).trans
    (multiReduction_min_cols_apply (k0_pay5 (F := Ideal) x0 x1 x2) reduces_S4096x512_S512 (.inl rfl) rfl q)

/-- The running total grows by the sum, over the tile's points, of the clamped square root of the least entry of the
    point's row. -/
theorem pay6_apply (v27 : Vec Ideal S1x1x1 .f32) :
    k0_pay6 (F := Ideal) x0 x1 x2 v27 (ix3 (0 : Fin 1) (0 : Fin 1) (0 : Fin 1))
      = v27 (ix3 (0 : Fin 1) (0 : Fin 1) (0 : Fin 1))
        + ∑ r : Fin 4096, Cert.DistSpec.clampRoot
            ((Finset.univ : Finset (Fin 512)).fold min ⊤ fun q => k0_pay5 (F := Ideal) x0 x1 x2 (ix2 r q)) := by
  unfold k0_pay6
  refine (congrFun (shapeCast_self _ shapeCasts_S1x1x1_S1x1x1) _).trans ?_
  refine congrArg (v27 (ix3 (0 : Fin 1) (0 : Fin 1) (0 : Fin 1)) + ·) ?_
  refine (shapeCast_ab_1ab_apply _ shapeCasts_S1x1_S1x1x1 (0 : Fin 1) (0 : Fin 1) (0 : Fin 1)).trans ?_
  refine (shapeCast_a_1a_apply _ shapeCasts_S1_S1x1 (0 : Fin 1) (0 : Fin 1)).trans ?_
  refine (multiReduction_add_col_apply _ reduces_S4096x1_S1 (.inl rfl) rfl (0 : Fin 1)).trans ?_
  refine Finset.sum_congr rfl fun r _ => ?_
  refine (sqrt_clamp_apply _ (ix2 r (0 : Fin 1))).trans (congrArg Cert.DistSpec.clampRoot ?_)
  exact (Cert.LibKeepdims.shapeCast_a_a1_apply _ shapeCasts_S4096_S4096x1 r (0 : Fin 1)).trans
    (multiReduction_min_rows_apply (k0_pay5 (F := Ideal) x0 x1 x2) reduces_S4096x512_S4096 (.inl rfl) rfl r)

/-! ## The constant fills and the two elementwise updates -/

/-- The fill of the running minimum is `+∞` everywhere. -/
theorem pay3_apply (y : S1x1x512.Idx) : k0_pay3 (F := Ideal) y = ⊤ := by
  unfold k0_pay3
  refine (congrFun (shapeCast_self _ _) y).trans ?_
  exact MinFold.ofBits_inf_f32

/-- The fill of the running total is `0`. -/
theorem pay4_apply (y : S1x1x1.Idx) : k0_pay4 (F := Ideal) y = 0 := by
  unfold k0_pay4
  refine (congrFun (shapeCast_self _ _) y).trans ?_
  exact Ideal.ofBits_zero_f32

/-- The running minimum is updated, prototype by prototype, by the minimum with the tile's column minimum. -/
theorem pay1_apply (v34 : FVec Ideal S1x512 .f32) (v35 : Vec Ideal S1x1x512 .f32) (q : Fin 512) :
    k0_pay1 (F := Ideal) v34 v35 (ix3 (0 : Fin 1) (0 : Fin 1) q)
      = min (v35 (ix3 (0 : Fin 1) (0 : Fin 1) q)) (v34 (ix2 (0 : Fin 1) q)) := by
  unfold k0_pay1
  refine (congrFun (shapeCast_self _ _) _).trans ?_
  refine congrArg (min (v35 (ix3 (0 : Fin 1) (0 : Fin 1) q))) ?_
  exact shapeCast_ab_1ab_apply v34 _ (0 : Fin 1) (0 : Fin 1) q

/-- The final running minimum is clamped below at zero and its square root taken, prototype by prototype. -/
theorem pay2_apply (v44 : Vec Ideal S1x1x512 .f32) (q : Fin 512) :
    k0_pay2 (F := Ideal) v44 (ix3 (0 : Fin 1) (0 : Fin 1) q)
      = Cert.DistSpec.clampRoot (v44 (ix3 (0 : Fin 1) (0 : Fin 1) q)) := by
  unfold k0_pay2
  exact sqrt_clamp_apply v44 _

end Cert.KernelIdeal.TileValue

end
-- ==== Proof.KernelAccum.lean ====
/-
  The accumulators after each grid point, in closed form, on the extended reals.

  With `z` the points and `p` the prototypes, the tile of point `t` is the squared distances `sq (t·4096 + r) q`.
  Its column minima `colTile t q` are folded into the running row of minima, and `tileSum t` — the sum over the tile's
  rows of the clamped root of the row's minimum — is added to the running sum.  Both are restarted at each core's
  first step, so after point `n` the running minimum at column `q` is the greatest lower bound of `colTile k q` over
  the points `k` of the same core up to `n`, and the running sum is the sum of `tileSum k` over those points.
-/
import proofs.«170576_j20349555048831_2_alg».proof.Proof.KernelSteps
import proofs.«170576_j20349555048831_2_alg».proof.Proof.KernelBlocks
import proofs.«170576_j20349555048831_2_alg».proof.Proof.AccumAlgebra
import proofs.«170576_j20349555048831_2_alg».proof.Proof.TileValues

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.DistSpec Cert.AccumAlgebra

variable (m : (ℓ : Loc nD τ sig) → Buf (Elt Ideal) ℓ) (c : Dev nD)

/-- The points and the prototypes as families of coordinates. -/
abbrev Z : Fin 262144 → Fin 256 → EReal := fun n d => points m c (ix2 n d)
abbrev P : Fin 512 → Fin 256 → EReal := fun q d => protos m c (ix2 q d)

/-- The tile of squared distances at point `t` is `sq` at the tile's rows: the block of `z` is rows `t·4096 + r`, the
    other two blocks are the prototypes and their squared norms (the host's sum starts from the zero word, which is `0`). -/
theorem tile_sq (t : Fin cfg0.N) (r : Fin 4096) (q : Fin 512) :
    k0_pay5 (F := Ideal) (iblk m c 0 t) (iblk m c 1 t) (iblk m c 2 t) (ix2 r q) = DistSpec.sq (Z m c) (P m c) (rowOf t r) q := by
  refine (TileValue.pay5_apply (iblk m c 0 t) (iblk m c 1 t) (iblk m c 2 t) r q).trans ?_
  unfold DistSpec.sq
  simp only [zblock_pts, pblock, nblock, Ideal.ofBits_zero_f32, zero_add]

/-- The tile's column minima. -/
def colTile (t : Fin cfg0.N) (q : Fin 512) : EReal :=
  (Finset.univ : Finset (Fin 4096)).fold min ⊤ fun r => DistSpec.sq (Z m c) (P m c) (rowOf t r) q

/-- The tile's contribution to the sum over the points: each row's clamped root of its minimum over the prototypes. -/
def tileSum (t : Fin cfg0.N) : EReal :=
  ∑ r : Fin 4096, clampRoot ((Finset.univ : Finset (Fin 512)).fold min ⊤ fun q => DistSpec.sq (Z m c) (P m c) (rowOf t r) q)

theorem colmin_at (t : Fin cfg0.N) (q : Fin 512) :
    k0_pay7 (F := Ideal) (iblk m c 0 t) (iblk m c 1 t) (iblk m c 2 t) (ix2 (0 : Fin 1) q) = colTile m c t q := by
  refine (TileValue.pay7_apply (iblk m c 0 t) (iblk m c 1 t) (iblk m c 2 t) q).trans ?_
  unfold colTile
  exact congrArg (fun f => Finset.fold min (⊤ : EReal) f (Finset.univ : Finset (Fin 4096))) (funext fun r => tile_sq m c t r q)

theorem sum_at (t : Fin cfg0.N) (v : Vec Ideal S1x1x1 .f32) :
    k0_pay6 (F := Ideal) (iblk m c 0 t) (iblk m c 1 t) (iblk m c 2 t) v (ix3 (0 : Fin 1) (0 : Fin 1) (0 : Fin 1))
      = v (ix3 (0 : Fin 1) (0 : Fin 1) (0 : Fin 1)) + tileSum m c t := by
  refine (TileValue.pay6_apply (iblk m c 0 t) (iblk m c 1 t) (iblk m c 2 t) v).trans ?_
  unfold tileSum
  refine congrArg (_ + ·) (Finset.sum_congr rfl fun r _ => ?_)
  exact congrArg (fun f => clampRoot (Finset.fold min (⊤ : EReal) f (Finset.univ : Finset (Fin 512)))) (funext fun q => tile_sq m c t r q)

/-! ## The accumulators, as functions of the point's number -/

/-- The running minimum at column `q` after point `n`. -/
def Mq (q : Fin 512) (n : ℕ) : EReal :=
  if h : n < cfg0.N then (outsAt0 m c n h).2.2.1 (ix3 (0 : Fin 1) (0 : Fin 1) q) else ⊤
/-- The tile's column minimum at column `q`, by the point's number. -/
def Cq (q : Fin 512) (n : ℕ) : EReal := if h : n < cfg0.N then colTile m c ⟨n, h⟩ q else ⊤
/-- The running sum after point `n`. -/
def Sn (n : ℕ) : EReal :=
  if h : n < cfg0.N then (outsAt0 m c n h).2.2.2 (ix3 (0 : Fin 1) (0 : Fin 1) (0 : Fin 1)) else 0
/-- The tile's contribution, by the point's number. -/
def Tn (n : ℕ) : EReal := if h : n < cfg0.N then tileSum m c ⟨n, h⟩ else 0

theorem lt_N {n : ℕ} (hn : n < 64) : n < cfg0.N := lt_of_lt_of_eq hn (show cfg0.N = 64 from N_0).symm

theorem Mq_first (q : Fin 512) (n : ℕ) (hn : n < 64) (h0 : n % 32 = 0) : Mq m c q n = min ⊤ (Cq m c q n) := by
  have h : n < cfg0.N := lt_N hn
  unfold Mq Cq
  rw [dif_pos h, dif_pos h]
  refine (congrFun (Steps.scratch_first m c ⟨n, h⟩ h0).1 (ix3 (0 : Fin 1) (0 : Fin 1) q)).trans ?_
  refine (TileValue.pay1_apply _ _ q).trans ?_
  rw [TileValue.pay3_apply, colmin_at]

theorem Mq_next (q : Fin 512) (n : ℕ) (hn : n < 64) (h0 : n % 32 ≠ 0) :
    Mq m c q n = min (Mq m c q (n - 1)) (Cq m c q n) := by
  have h : n < cfg0.N := lt_N hn
  have h' : n - 1 < cfg0.N := lt_N (by omega)
  unfold Mq Cq
  rw [dif_pos h, dif_pos h, dif_pos h']
  refine (congrFun (Steps.scratch_next m c ⟨n, h⟩ h0).1 (ix3 (0 : Fin 1) (0 : Fin 1) q)).trans ?_
  refine (TileValue.pay1_apply _ _ q).trans ?_
  rw [colmin_at]

theorem Sn_first (n : ℕ) (hn : n < 64) (h0 : n % 32 = 0) : Sn m c n = 0 + Tn m c n := by
  have h : n < cfg0.N := lt_N hn
  unfold Sn Tn
  rw [dif_pos h, dif_pos h]
  refine (congrFun (Steps.scratch_first m c ⟨n, h⟩ h0).2 (ix3 (0 : Fin 1) (0 : Fin 1) (0 : Fin 1))).trans ?_
  refine (sum_at m c ⟨n, h⟩ _).trans ?_
  rw [TileValue.pay4_apply]

theorem Sn_next (n : ℕ) (hn : n < 64) (h0 : n % 32 ≠ 0) : Sn m c n = Sn m c (n - 1) + Tn m c n := by
  have h : n < cfg0.N := lt_N hn
  have h' : n - 1 < cfg0.N := lt_N (by omega)
  unfold Sn Tn
  rw [dif_pos h, dif_pos h, dif_pos h']
  refine (congrFun (Steps.scratch_next m c ⟨n, h⟩ h0).2 (ix3 (0 : Fin 1) (0 : Fin 1) (0 : Fin 1))).trans ?_
  exact sum_at m c ⟨n, h⟩ _

/-- After point `n` the running minimum at column `q` is the greatest lower bound of the column minima of the tiles
    of the same core up to `n`. -/
theorem Mq_le_iff (q : Fin 512) :
    ∀ n, n < 64 → ∀ x, x ≤ Mq m c q n ↔ ∀ k, n - n % 32 ≤ k → k ≤ n → x ≤ Cq m c q k :=
  runMin_le_iff (Mq m c q) (Cq m c q) (Mq_first m c q) (Mq_next m c q)

/-- After point `n` the running sum is the sum of the contributions of the tiles of the same core up to `n`. -/
theorem Sn_eq : ∀ n, n < 64 → Sn m c n = ∑ k ∈ Finset.Icc (n - n % 32) n, Tn m c k :=
  runSum_eq (Sn m c) (Tn m c) (Sn_first m c) (Sn_next m c)

end Cert.KernelIdeal.Accum

end
-- ==== Proof.KernelArrays.lean ====
/-
  The kernel's two result arrays after the run.

  Output block `(core, 0, ·)` is written once, at the core's last step `t = 32·core + 31`: the clamped square roots of
  the core's accumulated column minima into `[2, 1, 512]`, the core's accumulated sum into `[2, 1, 1]`.  The two
  blocks written cover each array, so each array ends as one function of its index: at `(core, 0, q)` the clamped
  root of the running minimum after point `32·core + 31`, at `(core, 0, 0)` the running sum after that point.
-/
import proofs.«170576_j20349555048831_2_alg».proof.Proof.KernelAccum

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Blocks Cert.KernelIdeal.Accum Cert.DistSpec

/-- The output windows' block indices, decided once over the grid: the core's number, then zeros. -/
theorem idx_min : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)
theorem idx_sum : ∀ t : Fin cfg0.N, win0_4.index t (0 : Fin 3) = t.val / 32 ∧ win0_4.index t (1 : Fin 3) = 0 ∧ win0_4.index t (2 : Fin 3) = 0 :=
  (by decide +kernel : ∀ t : Fin grid0.N, win0_4.index t (0 : Fin 3) = t.val / 32 ∧ win0_4.index t (1 : Fin 3) = 0 ∧ win0_4.index t (2 : Fin 3) = 0)

variable (m : (ℓ : Loc nD τ sig) → Buf (Elt Ideal) ℓ) (c : Dev nD)

/-- The array of per-core column minima after the run. -/
def minOut : Buf (Elt Ideal) ((c : Thread nD τ).loc main_v4_0) :=
  fun (i : S2x1x512.Idx) => (clampRoot (Mq m c (i 2) (32 * (i 0).val + 31)) : EReal)
/-- The array of per-core sums after the run. -/
def sumOut : Buf (Elt Ideal) ((c : Thread nD τ).loc main_v4_1) :=
  fun (i : S2x1x1.Idx) => (Sn m c (32 * (i 0).val + 31) : EReal)

theorem Mq_at (q : Fin 512) (t : Fin cfg0.N) :
    Mq m c q t.val = (outsAt0 m c t.val t.isLt).2.2.1 (ix3 (0 : Fin 1) (0 : Fin 1) q) := by
  unfold Mq; rw [dif_pos t.isLt]
theorem Sn_at (t : Fin cfg0.N) :
    Sn m c t.val = (outsAt0 m c t.val t.isLt).2.2.2 (ix3 (0 : Fin 1) (0 : Fin 1) (0 : Fin 1)) := by
  unfold Sn; rw [dif_pos t.isLt]

/-- The clamped root of the accumulated minima after point `t`, at column `q` of the `[1, 1, 512]` block. -/
theorem min_block_value (t : Fin cfg0.N) (q : Fin 512) :
    k0_pay2 (F := Ideal) (outsAt0 m c t.val t.isLt).2.2.1 (ix3 (0 : Fin 1) (0 : Fin 1) q) = clampRoot (Mq m c q t.val) := by
  rw [Mq_at]
  exact TileValue.pay2_apply _ q

/-- What a core's last step writes back into the minima's array is that array's block. -/
theorem flushed_min (t : Fin cfg0.N) (hf : (cfg0.win 3).flush t = true) :
    (dats m 0 c).flushed 3 t = ((cfg0.win 3).blk t).view.read (Elt Ideal) (minOut m c) := by
  have h31 : t.val % 32 = 31 := (flush0_3 t).mp hf
  show (cfg0.win 3).cut (grid0.coords t) ((dats m 0 c).after 3 t) = _
  rw [after0_3, (Steps.outputs_last m c t h31).1]
  funext j
  obtain ⟨e0, e1, e2⟩ := idx_min t
  obtain ⟨q, rfl⟩ : ∃ q : Fin 512, j = ix3 (0 : Fin 1) (0 : Fin 1) q := ⟨j 2, funext fun a => Fin.ext (by
    match a with
    | ⟨0, _⟩ => show (j 0).val = 0; have : (j 0).val < 1 := (j 0).isLt; omega
    | ⟨1, _⟩ => show (j 1).val = 0; have : (j 1).val < 1 := (j 1).isLt; omega
    | ⟨2, _⟩ => rfl)⟩
  have a0 : ((((cfg0.win 3).blk t).view.emb (ix3 (0 : Fin 1) (0 : Fin 1) q)) 0).val = t.val / 32 := by
    show win0_3.index t 0 * 1 + 1 * (0 : Fin 1).val = t.val / 32
    rw [e0]; simp
  have a2 : (((cfg0.win 3).blk t).view.emb (ix3 (0 : Fin 1) (0 : Fin 1) q)) 2 = q :=
    Fin.ext (by show win0_3.index t 2 * 512 + 1 * q.val = q.val; rw [e2]; omega)
  show k0_pay2 (F := Ideal) (outsAt0 m c t.val t.isLt).2.2.1 (ix3 (0 : Fin 1) (0 : Fin 1) q)
    = clampRoot (Mq m c ((((cfg0.win 3).blk t).view.emb (ix3 (0 : Fin 1) (0 : Fin 1) q)) 2)
        (32 * ((((cfg0.win 3).blk t).view.emb (ix3 (0 : Fin 1) (0 : Fin 1) q)) 0).val + 31))
  rw [a2, a0, show 32 * (t.val / 32) + 31 = t.val from by omega]
  exact min_block_value m c t q

/-- What a core's last step writes back into the sums' array is that array's block. -/
theorem flushed_sum (t : Fin cfg0.N) (hf : (cfg0.win 4).flush t = true) :
    (dats m 0 c).flushed 4 t = ((cfg0.win 4).blk t).view.read (Elt Ideal) (sumOut m c) := by
  have h31 : t.val % 32 = 31 := (flush0_4 t).mp hf
  show (cfg0.win 4).cut (grid0.coords t) ((dats m 0 c).after 4 t) = _
  rw [after0_4, (Steps.outputs_last m c t h31).2]
  funext j
  obtain ⟨e0, e1, e2⟩ := idx_sum t
  obtain rfl : j = ix3 (0 : Fin 1) (0 : Fin 1) (0 : Fin 1) := funext fun a => Fin.ext (by
    match a with
    | ⟨0, _⟩ => show (j 0).val = 0; have : (j 0).val < 1 := (j 0).isLt; omega
    | ⟨1, _⟩ => show (j 1).val = 0; have : (j 1).val < 1 := (j 1).isLt; omega
    | ⟨2, _⟩ => show (j 2).val = 0; have : (j 2).val < 1 := (j 2).isLt; omega)
  have a0 : ((((cfg0.win 4).blk t).view.emb (ix3 (0 : Fin 1) (0 : Fin 1) (0 : Fin 1))) 0).val = t.val / 32 := by
    show win0_4.index t 0 * 1 + 1 * (0 : Fin 1).val = t.val / 32
    rw [e0]; simp
  show (outsAt0 m c t.val t.isLt).2.2.2 (ix3 (0 : Fin 1) (0 : Fin 1) (0 : Fin 1))
    = Sn m c (32 * ((((cfg0.win 4).blk t).view.emb (ix3 (0 : Fin 1) (0 : Fin 1) (0 : Fin 1))) 0).val + 31)
  rw [a0, show 32 * (t.val / 32) + 31 = t.val from by omega, Sn_at]

/-- An index of the minima's array is in point `t`'s block iff each coordinate is in the block's range. -/
theorem mem_blk_min (t : Fin cfg0.N) (i : S2x1x512.Idx) :
    i ∈ ((cfg0.win 3).blk t).view.set ↔ ∀ a : Fin 3, win0_3.index t a * S1x1x512.size a ≤ (i a).val ∧ (i a).val < win0_3.index t a * S1x1x512.size a + S1x1x512.size a := by
  show i ∈ ((View.whole main_v4_0).slice (win0_3.rect t)).set ↔ _
  rw [View.set_slice_whole, Rect.mem_set_unit]
  exact Iff.rfl
theorem mem_blk_sum (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v4_1).slice (win0_4.rect t)).set ↔ _
  rw [View.set_slice_whole, Rect.mem_set_unit]
  exact Iff.rfl

/-- The point that writes row `core` of an output: the core's last step. -/
def lastOf (k : Fin 2) : Fin cfg0.N := ⟨32 * k.val + 31, lt_N (by have := k.isLt; omega)⟩

/-- The minima's array after the run. -/
theorem final_min : (dats m 0 c).arrAt 3 cfg0.N = minOut m c :=
  (dats m 0 c).arrAt_eq_of_cover 3 (minOut m c) (flushed_min m c) fun i => by
    have h0 : (i 0).val < 2 := (i 0).isLt
    have h1 : (i 1).val < 1 := (i 1).isLt
    have h2 : (i 2).val < 512 := (i 2).isLt
    refine ⟨lastOf ⟨(i 0).val, h0⟩, (flush0_3 _).mpr (by show (32 * (i 0).val + 31) % 32 = 31; omega), ?_⟩
    rw [mem_blk_min]
    obtain ⟨e0, e1, e2⟩ := idx_min (lastOf ⟨(i 0).val, h0⟩)
    have ev : (lastOf ⟨(i 0).val, h0⟩).val / 32 = (i 0).val := by show (32 * (i 0).val + 31) / 32 = (i 0).val; omega
    intro a
    match a with
    | ⟨0, _⟩ => show win0_3.index _ 0 * 1 ≤ (i 0).val ∧ (i 0).val < win0_3.index _ 0 * 1 + 1; rw [e0, ev]; omega
    | ⟨1, _⟩ => show win0_3.index _ 1 * 1 ≤ (i 1).val ∧ (i 1).val < win0_3.index _ 1 * 1 + 1; rw [e1]; omega
    | ⟨2, _⟩ => show win0_3.index _ 2 * 512 ≤ (i 2).val ∧ (i 2).val < win0_3.index _ 2 * 512 + 512; rw [e2]; omega

/-- The sums' array after the run. -/
theorem final_sum : (dats m 0 c).arrAt 4 cfg0.N = sumOut m c :=
  (dats m 0 c).arrAt_eq_of_cover 4 (sumOut m c) (flushed_sum m c) fun i => by
    have h0 : (i 0).val < 2 := (i 0).isLt
    have h1 : (i 1).val < 1 := (i 1).isLt
    have h2 : (i 2).val < 1 := (i 2).isLt
    refine ⟨lastOf ⟨(i 0).val, h0⟩, (flush0_4 _).mpr (by show (32 * (i 0).val + 31) % 32 = 31; omega), ?_⟩
    rw [mem_blk_sum]
    obtain ⟨e0, e1, e2⟩ := idx_sum (lastOf ⟨(i 0).val, h0⟩)
    have ev : (lastOf ⟨(i 0).val, h0⟩).val / 32 = (i 0).val := by show (32 * (i 0).val + 31) / 32 = (i 0).val; omega
    intro a
    match a with
    | ⟨0, _⟩ => show win0_4.index _ 0 * 1 ≤ (i 0).val ∧ (i 0).val < win0_4.index _ 0 * 1 + 1; rw [e0, ev]; omega
    | ⟨1, _⟩ => show win0_4.index _ 1 * 1 ≤ (i 1).val ∧ (i 1).val < win0_4.index _ 1 * 1 + 1; rw [e1]; omega
    | ⟨2, _⟩ => show win0_4.index _ 2 * 1 ≤ (i 2).val ∧ (i 2).val < win0_4.index _ 2 * 1 + 1; rw [e2]; omega

end Cert.KernelIdeal.Arrays

end
-- ==== Proof.KernelLoss.lean ====
/-
  The kernel's result is the specification's loss.

  After the call the host takes, per column, the minimum over the two cores of the cores' clamped-root minima, sums
  those over the columns, and divides by the count of prototypes; it sums the two cores' sums and divides by the count
  of points; each mean is weighted by the same word and the two are added.  Core `k`'s accumulators are those after
  point `32·k + 31`: the sum over the core's 32 tiles, and the greatest lower bound of the squared distances over the
  rows of those tiles.  Summing over both cores gives the sum over all 64 tiles, hence over all rows, of each row's
  clamped root of its minimum over the prototypes — and the clamped root, being monotone, passes inside that
  minimum.  The minimum over the cores of the clamped roots of the cores' minima is likewise the minimum over all
  rows of the clamped roots.  Only commutativity and associativity of `+` and `min` are used: no finiteness.
-/
import proofs.«170576_j20349555048831_2_alg».proof.Proof.KernelArrays
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.KernelIdeal.Blocks Cert.KernelIdeal.Accum Cert.KernelIdeal.Arrays
open Cert.DistSpec Cert.AccumAlgebra Idealize.ShloMosaic.MinFold

/-! ## The host operations after the call, as one function of the two result arrays -/

/-- The seventeen host operations after the call, composed. -/
def tail (A3 : FVec Ideal S2x1x512 .f32) (A4 : FVec Ideal S2x1x1 .f32) : FVec Ideal S_ .f32 :=
  addf
    (mulf (constant (F := Ideal) S_ .f32 0x3D4CCCCD#32)
      (Host.divf (F := Ideal)
        (Host.reduceAdd (F := Ideal) (shapeCast S2 A4 shapeCasts_S2x1x1_S2) (constant (F := Ideal) S_ .f32 0x00000000#32) reducesTo_S2_S_d0 h_S_)
        (constant (F := Ideal) S_ .f32 0x48800000#32)))
    (mulf (constant (F := Ideal) S_ .f32 0x3D4CCCCD#32)
      (Host.divf (F := Ideal)
        (Host.reduceAdd (F := Ideal)
          (Host.reduce (FloatOps.minimumf (F := Ideal) (φ := .f32)) (shapeCast S2x512 A3 shapeCasts_S2x1x512_S2x512)
            (constant (F := Ideal) S_ .f32 0x7F800000#32) reducesTo_S2x512_S512_d0 h_S_)
          (constant (F := Ideal) S_ .f32 0x00000000#32) reducesTo_S512_S_d0 h_S_)
        (constant (F := Ideal) S_ .f32 0x44000000#32)))

/-- A one-axis index set is its coordinate range, so a sum over it is the sum over the coordinate. -/
theorem sum_ix1 {M : Type*} [AddCommMonoid M] {n : ℕ} (f : (⟨1, ![n]⟩ : Shape).Idx → M) :
    ∑ j, f j = ∑ a : Fin n, f (ix1 a) :=
  (Equiv.sum_comp (⟨ix1, fun j => j 0, fun _ => rfl, fun j => (eq_ix1 j).symm⟩ : Fin n ≃ (⟨1, ![n]⟩ : Shape).Idx) f).symm

/-- The `[2, 1, 1]` array viewed as `[2]`. -/
theorem cast_sum (A4 : FVec Ideal S2x1x1 .f32) (k : Fin 2) :
    shapeCast S2 A4 shapeCasts_S2x1x1_S2 (ix1 k) = A4 (ix3 k (0 : Fin 1) (0 : Fin 1)) :=
  shapeCast_apply A4 shapeCasts_S2x1x1_S2 _ _ (by
    rw [Shape.rowMajor_val_three, Shape.rowMajor_val_one]
    show (k.val * 1 + 0) * 1 + 0 = k.val
    omega)

/-- The `[2, 1, 512]` array viewed as `[2, 512]`. -/
theorem cast_min (A3 : FVec Ideal S2x1x512 .f32) (k : Fin 2) (q : Fin 512) :
    shapeCast S2x512 A3 shapeCasts_S2x1x512_S2x512 (ix2 k q) = A3 (ix3 k (0 : Fin 1) q) :=
  shapeCast_apply A3 shapeCasts_S2x1x512_S2x512 _ _ (by
    rw [Shape.rowMajor_val_three, Shape.rowMajor_val_two]
    show (k.val * 1 + 0) * 512 + q.val = k.val * 512 + q.val
    omega)

/-- The host's minimum over the two cores, at column `q`. -/
theorem coreMin_apply (x : FVec Ideal S2x512 .f32) (q : Fin 512) :
    Host.reduce (FloatOps.minimumf (F := Ideal) (φ := .f32)) x (constant (F := Ideal) S_ .f32 0x7F800000#32) reducesTo_S2x512_S512_d0 h_S_ (ix1 q)
      = (Finset.univ : Finset (Fin 2)).fold min ⊤ fun k => x (ix2 k q) := by
  rw [Host.reduce_eq_fold_single (FloatOps.minimumf (F := Ideal) (φ := .f32)) x _ reducesTo_S2x512_S512_d0 (by decide) h_S_]
  have hf : (x ∘ (by decide : S2x512.Reduces [0] S512).lift (ix1 q)) = fun k : Fin 2 => x (ix2 k q) :=
    funext fun k => congrArg x (funext fun a => Fin.ext (by match a with | ⟨0, _⟩ => rfl | ⟨1, _⟩ => rfl))
  rw [show (constant (F := Ideal) S_ .f32 0x7F800000#32) (Shape.Idx.first h_S_) = (⊤ : EReal) from ofBits_inf_f32]
  exact congrArg (fun f => Finset.fold min (⊤ : EReal) f (Finset.univ : Finset (Fin 2))) hf

/-- The tail's value: the shared last operations applied to the sum over the cores of the cores' sums and to the
    sum over the columns of the minimum over the cores. -/
theorem tail_apply (A3 : FVec Ideal S2x1x512 .f32) (A4 : FVec Ideal S2x1x1 .f32) (i : S_.Idx) :
    tail A3 A4 i
      = combine (∑ k : Fin 2, A4 (ix3 k (0 : Fin 1) (0 : Fin 1)))
          (∑ q : Fin 512, (Finset.univ : Finset (Fin 2)).fold min ⊤ fun k => A3 (ix3 k (0 : Fin 1) q)) := by
  have r4 : Host.reduceAdd (F := Ideal) (shapeCast S2 A4 shapeCasts_S2x1x1_S2) (constant (F := Ideal) S_ .f32 0x00000000#32) reducesTo_S2_S_d0 h_S_ i
      = Ideal.ofBits .f32 0x00000000#32 + ∑ k : Fin 2, A4 (ix3 k (0 : Fin 1) (0 : Fin 1)) := by
    simp only [Host.reduceAdd, Ideal.hostReduceAdd_def]
    rw [Ideal.hostReduceAdd_total reducesTo_S2_S_d0 (fun b => b.elim0) _ _ i, sum_ix1]
    exact congrArg (_ + ·) (Finset.sum_congr rfl fun k _ => cast_sum A4 k)
  have r3 : Host.reduceAdd (F := Ideal)
        (Host.reduce (FloatOps.minimumf (F := Ideal) (φ := .f32)) (shapeCast S2x512 A3 shapeCasts_S2x1x512_S2x512)
          (constant (F := Ideal) S_ .f32 0x7F800000#32) reducesTo_S2x512_S512_d0 h_S_)
        (constant (F := Ideal) S_ .f32 0x00000000#32) reducesTo_S512_S_d0 h_S_ i
      = Ideal.ofBits .f32 0x00000000#32
        + ∑ q : Fin 512, (Finset.univ : Finset (Fin 2)).fold min ⊤ fun k => A3 (ix3 k (0 : Fin 1) q) := by
    simp only [Host.reduceAdd, Ideal.hostReduceAdd_def]
    rw [Ideal.hostReduceAdd_total reducesTo_S512_S_d0 (fun b => b.elim0) _ _ i, sum_ix1]
    refine congrArg (_ + ·) (Finset.sum_congr rfl fun q _ => ?_)
    rw [coreMin_apply]
    exact congrArg (fun f => Finset.fold min (⊤ : EReal) f (Finset.univ : Finset (Fin 2))) (funext fun k => cast_min A3 k q)
  unfold tail combine
  show Ideal.ofBits .f32 0x3D4CCCCD#32 * Ideal.div (Host.reduceAdd (F := Ideal) _ _ reducesTo_S2_S_d0 h_S_ i) (Ideal.ofBits .f32 0x48800000#32)
      + Ideal.ofBits .f32 0x3D4CCCCD#32 * Ideal.div (Host.reduceAdd (F := Ideal) _ _ reducesTo_S512_S_d0 h_S_ i) (Ideal.ofBits .f32 0x44000000#32) = _
  rw [r4, r3]

/-! ## The accumulated values are the specification's -/

variable (m : (ℓ : Loc nD τ sig) → Buf (Elt Ideal) ℓ) (c : Dev nD)

/-- The two result arrays, as arrays of extended reals. -/
abbrev minArr : FVec Ideal S2x1x512 .f32 := minOut m c
abbrev sumArr : FVec Ideal S2x1x1 .f32 := sumOut m c

theorem rowOf_eq (k : ℕ) (hk : k < 64) (r : Fin 4096) : rowOf ⟨k, lt_N hk⟩ r = rowN ⟨k, hk⟩ r := rfl

/-- A tile's contribution is the sum over its rows of each row's distance to its nearest prototype. -/
theorem Tn_eq (t : Fin 64) : Tn m c t.val = ∑ r : Fin 4096, rowMin (Z m c) (P m c) (rowN t r) := by
  unfold Tn
  rw [dif_pos (lt_N t.isLt)]
  unfold tileSum rowMin clampRoot
  refine Finset.sum_congr rfl fun r _ => ?_
  rw [sqrtClamp_fold_min]
  rfl

/-- The two cores' sums add up to the sum over all points of their distances to their nearest prototypes. -/
theorem sums_total :
    ∑ k : Fin 2, sumArr m c (ix3 k (0 : Fin 1) (0 : Fin 1)) = ∑ n, rowMin (Z m c) (P m c) n := by
  have e : ∀ k : Fin 2, sumArr m c (ix3 k (0 : Fin 1) (0 : Fin 1)) = ∑ j ∈ Finset.Icc (32 * k.val) (32 * k.val + 31), Tn m c j := by
    intro k
    have hk := k.isLt
    show Sn m c (32 * k.val + 31) = _
    rw [Sn_eq m c (32 * k.val + 31) (by omega), show 32 * k.val + 31 - (32 * k.val + 31) % 32 = 32 * k.val from by omega]
  rw [Finset.sum_congr rfl fun k _ => e k, sum_cores (Tn m c), Finset.sum_congr rfl fun t _ => Tn_eq m c t, sum_rows]

/-- At each column the minimum over the cores is that prototype's distance to its nearest point. -/
theorem mins_total (q : Fin 512) :
    ((Finset.univ : Finset (Fin 2)).fold min ⊤ fun k => minArr m c (ix3 k (0 : Fin 1) q)) = colMin (Z m c) (P m c) q := by
  unfold colMin
  refine min_cores (fun n => DistSpec.sq (Z m c) (P m c) n q) (fun k => Mq m c q (32 * k.val + 31)) fun k x => ?_
  have hk := k.isLt
  rw [Mq_le_iff m c q (32 * k.val + 31) (by omega) x, show 32 * k.val + 31 - (32 * k.val + 31) % 32 = 32 * k.val from by omega]
  constructor
  · intro h j hj1 hj2 hj r
    have := h j hj1 hj2
    unfold Cq at this
    rw [dif_pos (lt_N hj)] at this
    unfold colTile at this
    exact (le_fold_min_top _ _ _).mp this r (Finset.mem_univ r)
  · intro h j hj1 hj2
    have hj : j < 64 := by omega
    unfold Cq
    rw [dif_pos (lt_N hj)]
    unfold colTile
    exact (le_fold_min_top _ _ _).mpr fun r _ => h j hj1 hj2 hj r

/-- The tail of the two result arrays is the loss of the points and the prototypes. -/
theorem value (i : S_.Idx) : tail (minArr m c) (sumArr m c) i = loss (Z m c) (P m c) := by
  rw [tail_apply]
  unfold loss
  rw [sums_total, Finset.sum_congr rfl fun q _ => mins_total m c q]

end Cert.KernelIdeal.Loss

end
-- ==== Proof.KernelRun.lean ====
/-
  The idealized kernel's run, read: every weakly fair execution terminates with the result at the specification's
  loss of the two argument arrays, and with the arguments unchanged.

  The frame run leaves each result array of the call at what the covering blocks wrote (the per-core minima and
  sums) and every other buffer at what the host operations after the call compute from those arrays; that
  computation at the result's one index is the loss.
-/
import proofs.«170576_j20349555048831_2_alg».proof.Proof.KernelLoss

noncomputable section

open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.KernelIdeal.Blocks Cert.KernelIdeal.Accum Cert.KernelIdeal.Arrays Cert.DistSpec

variable (m : (ℓ : Loc nD τ sig) → Buf (Elt Ideal) ℓ)

/-- The result buffer after the host's last operations. -/
theorem result_eq (c : Dev nD) :
    Pipeline.afterTail₀ cfgs (dats m) 0 (V0 m) [hostOps1] c main_v14 = fun _ => loss (Z m c) (P m c) := by
  have e3 : Pipeline.withArrays (cfgs 0).spec c (V0 m c) (fun w => (dats m 0 c).arrAt w (cfgs 0).N) (Proc.devRef .tc main_v4_0)
      = minOut m c := (Pipeline.withArrays_arr spec0 launch0.win.arr_inj c _ _ 3).trans (final_min m c)
  have e4 : Pipeline.withArrays (cfgs 0).spec c (V0 m c) (fun w => (dats m 0 c).arrAt w (cfgs 0).N) (Proc.devRef .tc main_v4_1)
      = sumOut m c := (Pipeline.withArrays_arr spec0 launch0.win.arr_inj c _ _ 4).trans (final_sum m c)
  unfold Pipeline.afterTail₀
  show StableHlo.after hostOps1 _ (Proc.devRef .tc main_v14) = _
  after_results
  rw [e3, e4]
  funext i
  exact value m c i

/-- The run. -/
theorem run (ρ : Dev nD → PrngReg) :
    θ_run defs (onTc (τ := τ) (main (F := Ideal))) ⟨m, fun _ => 0, ρ⟩ (fun r => ∀ c : Dev nD,
      r.2.mem ((c.tc : Thread nD τ).loc main_v14) = (fun _ => loss (Z m c) (P m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Loss

end
-- ==== Proof.lean ====
/-
  A prototype loss from pairwise distances, computed two ways: the proof that the two programs agree on the
  extended reals.

  With `z` the 262144 points and `p` the 512 prototypes (256 coordinates each), the squared distance is taken by the
  norm identity, `sq n q = (Σ z² + Σ p²) - 2·Σ z·p`, and a distance is the square root of the squared distance
  clamped below at zero.  The loss is a weighted mean over the points of each point's distance to its nearest
  prototype, plus the same weighted mean over the prototypes of each prototype's distance to its nearest point
  (`Proof/DistSpec.lean`).

  The reference computes both distance matrices in full, `[points, prototypes]` and its transpose, and reduces each
  along its rows (`Proof/RefLoss.lean`: the transposed squared distance is the same number, by commutativity of `+`
  and `·`).  The kernel never forms the matrix: it walks the points in 64 tiles of 4096 rows, 32 tiles per core,
  keeping per core a running row of column minima of the SQUARED distances and a running sum of the rows' clamped
  roots of their minima; it takes the clamped root of the column minima once, at the core's last tile, and the host
  combines the two cores (`Proof/TileValues.lean`: one tile's arithmetic; `Proof/KernelSteps.lean`,
  `Proof/KernelAccum.lean`: the accumulators after each tile; `Proof/KernelArrays.lean`: the two result arrays;
  `Proof/KernelLoss.lean`: the host's last operations and the identification with the loss).

  What joins the two sides: a sum and a minimum may be taken in any grouping (tile by tile, core by core, or all at
  once), and the clamped square root is monotone, so it may be taken before or after a minimum
  (`Proof/AccumAlgebra.lean`, `Proof/LibMinFold.lean`).  None of this needs the inputs to be finite, and the
  precondition is not opened.  The ideal pass rewrote nothing, so the kernel's idealization is its own text.
-/
import proofs.«170576_j20349555048831_2_alg».proof.Defs
import proofs.«170576_j20349555048831_2_alg».proof.Proof.Gen.Kernel
import proofs.«170576_j20349555048831_2_alg».proof.Proof.Gen.Kernel.Skeleton
import proofs.«170576_j20349555048831_2_alg».proof.Proof.Gen.Kernel.Launch
import proofs.«170576_j20349555048831_2_alg».proof.Proof.Gen.Kernel.Points
import proofs.«170576_j20349555048831_2_alg».proof.Proof.Gen.Kernel.Frame
import proofs.«170576_j20349555048831_2_alg».proof.Proof.Gen.KernelIdeal
import proofs.«170576_j20349555048831_2_alg».proof.Proof.Gen.KernelIdeal.Skeleton
import proofs.«170576_j20349555048831_2_alg».proof.Proof.Gen.KernelIdeal.Launch
import proofs.«170576_j20349555048831_2_alg».proof.Proof.Gen.KernelIdeal.Points
import proofs.«170576_j20349555048831_2_alg».proof.Proof.Gen.KernelIdeal.Frame
import proofs.«170576_j20349555048831_2_alg».proof.Proof.Gen.ReferenceIdeal
import proofs.«170576_j20349555048831_2_alg».proof.Proof.Gen.Pre_finite_inputs
import proofs.«170576_j20349555048831_2_alg».proof.Proof.Gen.ReferenceIdeal.Run
import proofs.«170576_j20349555048831_2_alg».proof.Proof.Gen.ReferenceIdeal.Read
import proofs.«170576_j20349555048831_2_alg».proof.Proof.RefLoss
import proofs.«170576_j20349555048831_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the points and the prototypes, both programs end with the loss of those two arrays. -/
theorem algebraic : Cert.algebraic_KernelIdeal_ReferenceIdeal := by
  intro m ρ m' ρ' _ hagree
  refine ⟨fun c => fun _ => Cert.DistSpec.loss (Cert.KernelIdeal.Accum.Z m c) (Cert.KernelIdeal.Accum.P m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2]
  funext i
  exact Cert.ReferenceIdeal.RefValue.ref_value _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
